-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S64x64 : Shape := ⟨2, ![64, 64]⟩
abbrev S64x1 : Shape := ⟨2, ![64, 1]⟩
abbrev S448x1 : Shape := ⟨2, ![448, 1]⟩
abbrev S7x1 : Shape := ⟨2, ![7, 1]⟩
abbrev S6x1 : Shape := ⟨2, ![6, 1]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S448x1 : S_.BroadcastsInDim S448x1 (![] : Fin 0 → Fin S448x1.rank)
  reducesTo_S448x1_S_d0_1 : S448x1.ReducesTo [0, 1] S_
  bcast_S_S7x1 : S_.BroadcastsInDim S7x1 (![] : Fin 0 → Fin S7x1.rank)
  reducesTo_S7x1_S_d0_1 : S7x1.ReducesTo [0, 1] S_
  bcast_S_S6x1 : S_.BroadcastsInDim S6x1 (![] : Fin 0 → Fin S6x1.rank)
  reducesTo_S6x1_S_d0_1 : S6x1.ReducesTo [0, 1] S_

variable [Facts]

def fn_part2 {F : FTy → Type} [FloatOps F] (main_arg7 : FVec F S6x1 .f32) (main_v33 : IVec S_ 1) : IVec S_ 1 :=
  let main_v34 : FVec F S6x1 .f32 := Host.absf main_arg7
  let main_cst_12 : FVec F S_ .f32 := constant S_ .f32 0x7F800000#32
  let main_v35 : FVec F S6x1 .f32 := broadcastInDim S6x1 ![] bcast_S_S6x1 main_cst_12
  let main_v36 : IVec S6x1 1 := cmpf .olt main_v34 main_v35
  let main_c_13 : IVec S_ 1 := constantI S_ 1 1#1
  let main_v37 : IVec S_ 1 := (fun x v => Host.reduce IntOp.andi x v reducesTo_S6x1_S_d0_1 h_S_) main_v36 main_c_13
  let main_v38 : IVec S_ 1 := andi main_v33 main_v37
  main_v38

def fn_part1 {F : FTy → Type} [FloatOps F] (main_arg4 : FVec F S448x1 .f32) (main_arg5 : FVec F S7x1 .f32) (main_arg6 : FVec F S7x1 .f32) (main_arg7 : FVec F S6x1 .f32) (main_v13 : IVec S_ 1) (main_v16 : IVec S448x1 1) : IVec S_ 1 :=
  let main_c_5 : IVec S_ 1 := constantI S_ 1 1#1
  let main_v17 : IVec S_ 1 := (fun x v => Host.reduce IntOp.andi x v reducesTo_S448x1_S_d0_1 h_S_) main_v16 main_c_5
  let main_v18 : IVec S_ 1 := andi main_v13 main_v17
  let main_v19 : FVec F S448x1 .f32 := Host.absf main_arg4
  let main_cst_6 : FVec F S_ .f32 := constant S_ .f32 0x7F800000#32
  let main_v20 : FVec F S448x1 .f32 := broadcastInDim S448x1 ![] bcast_S_S448x1 main_cst_6
  let main_v21 : IVec S448x1 1 := cmpf .olt main_v19 main_v20
  let main_c_7 : IVec S_ 1 := constantI S_ 1 1#1
  let main_v22 : IVec S_ 1 := (fun x v => Host.reduce IntOp.andi x v reducesTo_S448x1_S_d0_1 h_S_) main_v21 main_c_7
  let main_v23 : IVec S_ 1 := andi main_v18 main_v22
  let main_v24 : FVec F S7x1 .f32 := Host.absf main_arg5
  let main_cst_8 : FVec F S_ .f32 := constant S_ .f32 0x7F800000#32
  let main_v25 : FVec F S7x1 .f32 := broadcastInDim S7x1 ![] bcast_S_S7x1 main_cst_8
  let main_v26 : IVec S7x1 1 := cmpf .olt main_v24 main_v25
  let main_c_9 : IVec S_ 1 := constantI S_ 1 1#1
  let main_v27 : IVec S_ 1 := (fun x v => Host.reduce IntOp.andi x v reducesTo_S7x1_S_d0_1 h_S_) main_v26 main_c_9
  let main_v28 : IVec S_ 1 := andi main_v23 main_v27
  let main_v29 : FVec F S7x1 .f32 := Host.absf main_arg6
  let main_cst_10 : FVec F S_ .f32 := constant S_ .f32 0x7F800000#32
  let main_v30 : FVec F S7x1 .f32 := broadcastInDim S7x1 ![] bcast_S_S7x1 main_cst_10
  let main_v31 : IVec S7x1 1 := cmpf .olt main_v29 main_v30
  let main_c_11 : IVec S_ 1 := constantI S_ 1 1#1
  let main_v32 : IVec S_ 1 := (fun x v => Host.reduce IntOp.andi x v reducesTo_S7x1_S_d0_1 h_S_) main_v31 main_c_11
  let main_v33 : IVec S_ 1 := andi main_v28 main_v32
  fn_part2 (F := F) main_arg7 main_v33

def fn {F : FTy → Type} [FloatOps F] (main_arg0 : FVec F S131072x64 .f32) (main_arg1 : FVec F S64x64 .f32) (main_arg2 : FVec F S64x1 .f32) (main_arg3 : FVec F S448x1 .f32) (main_arg4 : FVec F S448x1 .f32) (main_arg5 : FVec F S7x1 .f32) (main_arg6 : FVec F S7x1 .f32) (main_arg7 : FVec F S6x1 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S448x1 .f32 := Host.absf main_arg3
  let main_cst_4 : FVec F S_ .f32 := constant S_ .f32 0x7F800000#32
  let main_v15 : FVec F S448x1 .f32 := broadcastInDim S448x1 ![] bcast_S_S448x1 main_cst_4
  let main_v16 : IVec S448x1 1 := cmpf .olt main_v14 main_v15
  fn_part1 (F := F) main_arg4 main_arg5 main_arg6 main_arg7 main_v13 main_v16
-- ==== Kernel.lean ====
abbrev S131072x64 : Shape := ⟨2, ![131072, 64]⟩
abbrev S64x64 : Shape := ⟨2, ![64, 64]⟩
abbrev S64x1 : Shape := ⟨2, ![64, 1]⟩
abbrev S448x1 : Shape := ⟨2, ![448, 1]⟩
abbrev S7x1 : Shape := ⟨2, ![7, 1]⟩
abbrev S6x1 : Shape := ⟨2, ![6, 1]⟩
abbrev S1x64 : Shape := ⟨2, ![1, 64]⟩
abbrev S7x64 : Shape := ⟨2, ![7, 64]⟩
abbrev S7 : Shape := ⟨1, ![7]⟩
abbrev S6 : Shape := ⟨1, ![6]⟩
abbrev S32x1x4096 : Shape := ⟨3, ![32, 1, 4096]⟩
abbrev S4096x64 : Shape := ⟨2, ![4096, 64]⟩
abbrev S1x1x4096 : Shape := ⟨3, ![1, 1, 4096]⟩
abbrev S4096 : Shape := ⟨1, ![4096]⟩
abbrev S4096x1 : Shape := ⟨2, ![4096, 1]⟩
abbrev S32x128 : Shape := ⟨2, ![32, 128]⟩
abbrev S64 : Shape := ⟨1, ![64]⟩
abbrev S1 : Shape := ⟨1, ![1]⟩
abbrev S131072x1 : Shape := ⟨2, ![131072, 1]⟩

abbrev nBuf : Space → Nat
  | .hbm => 17
  | .vmem => 11
  | .smem => 0
  | _ => 0

abbrev bufTy : (tb : Table) → Fin (tcTables nBuf tb) → BufTy
  | .hbm, ⟨0, _⟩ => ⟨S131072x64, .f32⟩
  | .hbm, ⟨1, _⟩ => ⟨S64x64, .f32⟩
  | .hbm, ⟨2, _⟩ => ⟨S64x1, .f32⟩
  | .hbm, ⟨3, _⟩ => ⟨S448x1, .f32⟩
  | .hbm, ⟨4, _⟩ => ⟨S448x1, .f32⟩
  | .hbm, ⟨5, _⟩ => ⟨S7x1, .f32⟩
  | .hbm, ⟨6, _⟩ => ⟨S7x1, .f32⟩
  | .hbm, ⟨7, _⟩ => ⟨S6x1, .f32⟩
  | .hbm, ⟨8, _⟩ => ⟨S64x64, .bf16⟩
  | .hbm, ⟨9, _⟩ => ⟨S1x64, .f32⟩
  | .hbm, ⟨10, _⟩ => ⟨S7x64, .f32⟩
  | .hbm, ⟨11, _⟩ => ⟨S7x64, .f32⟩
  | .hbm, ⟨12, _⟩ => ⟨S7, .f32⟩
  | .hbm, ⟨13, _⟩ => ⟨S7, .f32⟩
  | .hbm, ⟨14, _⟩ => ⟨S6, .f32⟩
  | .hbm, ⟨15, _⟩ => ⟨S32x1x4096, .f32⟩
  | .hbm, ⟨16, _⟩ => ⟨S131072x1, .f32⟩
  | .local _ .vmem, ⟨0, _⟩ => ⟨S4096x64, .f32⟩
  | .local _ .vmem, ⟨1, _⟩ => ⟨S4096x64, .f32⟩
  | .local _ .vmem, ⟨2, _⟩ => ⟨S64x64, .bf16⟩
  | .local _ .vmem, ⟨3, _⟩ => ⟨S1x64, .f32⟩
  | .local _ .vmem, ⟨4, _⟩ => ⟨S7x64, .f32⟩
  | .local _ .vmem, ⟨5, _⟩ => ⟨S7x64, .f32⟩
  | .local _ .vmem, ⟨6, _⟩ => ⟨S7, .f32⟩
  | .local _ .vmem, ⟨7, _⟩ => ⟨S7, .f32⟩
  | .local _ .vmem, ⟨8, _⟩ => ⟨S6, .f32⟩
  | .local _ .vmem, ⟨9, _⟩ => ⟨S1x1x4096, .f32⟩
  | .local _ .vmem, ⟨10, _⟩ => ⟨S1x1x4096, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S64x1_S1x64_1_0 : S64x1.Transposes [1, 0] S1x64
  shapeCasts_S448x1_S7x64 : S448x1.ShapeCasts S7x64
  shapeCasts_S7x1_S7 : S7x1.ShapeCasts S7
  shapeCasts_S6x1_S6 : S6x1.ShapeCasts S6
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  shapeCasts_S4096x1_S32x128 : S4096x1.ShapeCasts S32x128
  inb_S7x64_S1x64_0_0 : ∀ a, (![0, 0] : Fin 2 → Nat) a + S1x64.size a ≤ S7x64.size a
  shapeCasts_S1x64_S64 : S1x64.ShapeCasts S64
  shapeCasts_S64_S1x64 : S64.ShapeCasts S1x64
  inb_S7x64_S1x64_1_0 : ∀ a, (![1, 0] : Fin 2 → Nat) a + S1x64.size a ≤ S7x64.size a
  inb_S7x64_S1x64_2_0 : ∀ a, (![2, 0] : Fin 2 → Nat) a + S1x64.size a ≤ S7x64.size a
  inb_S7x64_S1x64_3_0 : ∀ a, (![3, 0] : Fin 2 → Nat) a + S1x64.size a ≤ S7x64.size a
  inb_S7x64_S1x64_4_0 : ∀ a, (![4, 0] : Fin 2 → Nat) a + S1x64.size a ≤ S7x64.size a
  inb_S7x64_S1x64_5_0 : ∀ a, (![5, 0] : Fin 2 → Nat) a + S1x64.size a ≤ S7x64.size a
  inb_S7x64_S1x64_6_0 : ∀ a, (![6, 0] : Fin 2 → Nat) a + S1x64.size a ≤ S7x64.size a
  inb_S7_S1_0 : ∀ a, (![0] : Fin 1 → Nat) a + S1.size a ≤ S7.size a
  h_S1 : 0 < S1.numel
  inpos_S1_p0 : ∀ a, (![0] : Fin 1 → Nat) a < S1.size a
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  shapeCasts_S32x128_S4096x1 : S32x128.ShapeCasts S4096x1
  inb_S6_S1_0 : ∀ a, (![0] : Fin 1 → Nat) a + S1.size a ≤ S6.size a
  inb_S6_S1_1 : ∀ a, (![1] : Fin 1 → Nat) a + S1.size a ≤ S6.size a
  inb_S6_S1_2 : ∀ a, (![2] : Fin 1 → Nat) a + S1.size a ≤ S6.size a
  inb_S6_S1_3 : ∀ a, (![3] : Fin 1 → Nat) a + S1.size a ≤ S6.size a
  inb_S6_S1_4 : ∀ a, (![4] : Fin 1 → Nat) a + S1.size a ≤ S6.size a
  inb_S6_S1_5 : ∀ a, (![5] : Fin 1 → Nat) a + S1.size a ≤ S6.size a
  shapeCasts_S4096x1_S1x1x4096 : S4096x1.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S32x1x4096_S131072x1 : S32x1x4096.ShapeCasts S131072x1
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x64.size a ≤ S7x64.size a
  hwx0_3 : ∀ i : grid0.Coords, EltTy.bits .f32 = 32 ∨ (Rect.block (s := S7x64) S7x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x64.size a ≤ S7x64.size a
  hwx0_4 : ∀ i : grid0.Coords, EltTy.bits .f32 = 32 ∨ (Rect.block (s := S7x64) S7x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7.size a ≤ S7.size a
  hwx0_5 : ∀ i : grid0.Coords, EltTy.bits .f32 = 32 ∨ (Rect.block (s := S7) S7.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7.size a ≤ S7.size a
  hwx0_6 : ∀ i : grid0.Coords, EltTy.bits .f32 = 32 ∨ (Rect.block (s := S7) S7.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6.size a ≤ S6.size a
  hwx0_7 : ∀ i : grid0.Coords, EltTy.bits .f32 = 32 ∨ (Rect.block (s := S6) S6.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x4096.size a ≤ S32x1x4096.size a
  hwx0_8 : ∀ i : grid0.Coords, EltTy.bits .f32 = 32 ∨ (Rect.block (s := S32x1x4096) S1x1x4096.size (cc0_transform_8 i) (hinb0_8 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S7x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S7x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x64 : Shape := ⟨2, ![131072, 64]⟩
abbrev S64x64 : Shape := ⟨2, ![64, 64]⟩
abbrev S64x1 : Shape := ⟨2, ![64, 1]⟩
abbrev S448x1 : Shape := ⟨2, ![448, 1]⟩
abbrev S7x1 : Shape := ⟨2, ![7, 1]⟩
abbrev S6x1 : Shape := ⟨2, ![6, 1]⟩
abbrev S131072x1 : Shape := ⟨2, ![131072, 1]⟩
abbrev S_ : Shape := ⟨0, ![]⟩
abbrev S131072x448 : Shape := ⟨2, ![131072, 448]⟩
abbrev S131072x2 : Shape := ⟨2, ![131072, 2]⟩
abbrev S131072x7 : Shape := ⟨2, ![131072, 7]⟩
abbrev S131072x4 : Shape := ⟨2, ![131072, 4]⟩
abbrev S131072x6 : Shape := ⟨2, ![131072, 6]⟩

abbrev nBuf : Space → Nat
  | .hbm => 62
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S64x64, .f32⟩
  | .hbm, ⟨2, _⟩ => ⟨S64x1, .f32⟩
  | .hbm, ⟨3, _⟩ => ⟨S448x1, .f32⟩
  | .hbm, ⟨4, _⟩ => ⟨S448x1, .f32⟩
  | .hbm, ⟨5, _⟩ => ⟨S7x1, .f32⟩
  | .hbm, ⟨6, _⟩ => ⟨S7x1, .f32⟩
  | .hbm, ⟨7, _⟩ => ⟨S6x1, .f32⟩
  | .hbm, ⟨8, _⟩ => ⟨S131072x64, .f32⟩
  | .hbm, ⟨9, _⟩ => ⟨S131072x64, .f32⟩
  | .hbm, ⟨10, _⟩ => ⟨S131072x64, .f32⟩
  | .hbm, ⟨11, _⟩ => ⟨S131072x64, .f32⟩
  | .hbm, ⟨12, _⟩ => ⟨S131072x64, .f32⟩
  | .hbm, ⟨13, _⟩ => ⟨S131072x64, .f32⟩
  | .hbm, ⟨14, _⟩ => ⟨S131072x1, .f32⟩
  | .hbm, ⟨15, _⟩ => ⟨S131072x1, .f32⟩
  | .hbm, ⟨16, _⟩ => ⟨S131072x64, .f32⟩
  | .hbm, ⟨17, _⟩ => ⟨S131072x64, .f32⟩
  | .hbm, ⟨18, _⟩ => ⟨S131072x64, .f32⟩
  | .hbm, ⟨19, _⟩ => ⟨S131072x64, .f32⟩
  | .hbm, ⟨20, _⟩ => ⟨S131072x64, .f32⟩
  | .hbm, ⟨21, _⟩ => ⟨S131072x64, .f32⟩
  | .hbm, ⟨22, _⟩ => ⟨S131072x64, .f32⟩
  | .hbm, ⟨23, _⟩ => ⟨S131072x64, .f32⟩
  | .hbm, ⟨24, _⟩ => ⟨S_, .f32⟩
  | .hbm, ⟨25, _⟩ => ⟨S131072x64, .f32⟩
  | .hbm, ⟨26, _⟩ => ⟨S131072x64, .f32⟩
  | .hbm, ⟨27, _⟩ => ⟨S_, .f32⟩
  | .hbm, ⟨28, _⟩ => ⟨S131072x64, .f32⟩
  | .hbm, ⟨29, _⟩ => ⟨S131072x64, .f32⟩
  | .hbm, ⟨30, _⟩ => ⟨S131072x448, .f32⟩
  | .hbm, ⟨31, _⟩ => ⟨S131072x1, .f32⟩
  | .hbm, ⟨32, _⟩ => ⟨S131072x448, .f32⟩
  | .hbm, ⟨33, _⟩ => ⟨S131072x448, .f32⟩
  | .hbm, ⟨34, _⟩ => ⟨S131072x1, .f32⟩
  | .hbm, ⟨35, _⟩ => ⟨S131072x1, .f32⟩
  | .hbm, ⟨36, _⟩ => ⟨S131072x2, .f32⟩
  | .hbm, ⟨37, _⟩ => ⟨S131072x1, .f32⟩
  | .hbm, ⟨38, _⟩ => ⟨S131072x1, .f32⟩
  | .hbm, ⟨39, _⟩ => ⟨S131072x1, .f32⟩
  | .hbm, ⟨40, _⟩ => ⟨S131072x1, .f32⟩
  | .hbm, ⟨41, _⟩ => ⟨S131072x1, .f32⟩
  | .hbm, ⟨42, _⟩ => ⟨S131072x1, .f32⟩
  | .hbm, ⟨43, _⟩ => ⟨S131072x1, .f32⟩
  | .hbm, ⟨44, _⟩ => ⟨S131072x1, .f32⟩
  | .hbm, ⟨45, _⟩ => ⟨S_, .f32⟩
  | .hbm, ⟨46, _⟩ => ⟨S131072x1, .f32⟩
  | .hbm, ⟨47, _⟩ => ⟨S131072x1, .f32⟩
  | .hbm, ⟨48, _⟩ => ⟨S_, .f32⟩
  | .hbm, ⟨49, _⟩ => ⟨S131072x1, .f32⟩
  | .hbm, ⟨50, _⟩ => ⟨S131072x1, .f32⟩
  | .hbm, ⟨51, _⟩ => ⟨S131072x7, .f32⟩
  | .hbm, ⟨52, _⟩ => ⟨S131072x1, .f32⟩
  | .hbm, ⟨53, _⟩ => ⟨S131072x7, .f32⟩
  | .hbm, ⟨54, _⟩ => ⟨S131072x7, .f32⟩
  | .hbm, ⟨55, _⟩ => ⟨S131072x1, .f32⟩
  | .hbm, ⟨56, _⟩ => ⟨S131072x1, .f32⟩
  | .hbm, ⟨57, _⟩ => ⟨S131072x2, .f32⟩
  | .hbm, ⟨58, _⟩ => ⟨S131072x4, .f32⟩
  | .hbm, ⟨59, _⟩ => ⟨S131072x2, .f32⟩
  | .hbm, ⟨60, _⟩ => ⟨S131072x6, .f32⟩
  | .hbm, ⟨61, _⟩ => ⟨S131072x1, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]

class Facts₀ : Prop where
  bcast_S_S131072x64 : S_.BroadcastsInDim S131072x64 (![] : Fin 0 → Fin S131072x64.rank)
  concatenates_S131072x64_S131072x64_S131072x64_S131072x64_S131072x64_S131072x64_S131072x64_S131072x448_d1 : Shape.Concatenates [S131072x64, S131072x64, S131072x64, S131072x64, S131072x64, S131072x64, S131072x64] S131072x448 1
  concatenates_S131072x1_S131072x1_S131072x2_d1 : Shape.Concatenates [S131072x1, S131072x1] S131072x2 1
  bcast_S_S131072x1 : S_.BroadcastsInDim S131072x1 (![] : Fin 0 → Fin S131072x1.rank)
  concatenates_S131072x1_S131072x1_S131072x1_S131072x1_S131072x1_S131072x1_S131072x1_S131072x7_d1 : Shape.Concatenates [S131072x1, S131072x1, S131072x1, S131072x1, S131072x1, S131072x1, S131072x1] S131072x7 1
  concatenates_S131072x2_S131072x2_S131072x4_d1 : Shape.Concatenates [S131072x2, S131072x2] S131072x4 1
  concatenates_S131072x4_S131072x2_S131072x6_d1 : Shape.Concatenates [S131072x4, S131072x2] S131072x6 1
  dot_S131072x64_S64x64_S131072x64_1_0_0_1_n_n_wf : DotDims.WF S131072x64 S64x64 S131072x64 [1] [0] [0] [1] [] []
  dot_S131072x64_S64x1_S131072x1_1_0_0_1_n_n_wf : DotDims.WF S131072x64 S64x1 S131072x1 [1] [0] [0] [1] [] []
  dot_S131072x448_S448x1_S131072x1_1_0_0_1_n_n_wf : DotDims.WF S131072x448 S448x1 S131072x1 [1] [0] [0] [1] [] []
  dot_S131072x7_S7x1_S131072x1_1_0_0_1_n_n_wf : DotDims.WF S131072x7 S7x1 S131072x1 [1] [0] [0] [1] [] []
  dot_S131072x6_S6x1_S131072x1_1_0_0_1_n_n_wf : DotDims.WF S131072x6 S6x1 S131072x1 [1] [0] [0] [1] [] []

variable [Facts₀]

def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf
def dot_S131072x448_S448x1_S131072x1_1_0_0_1_n_n : DotDims S131072x448 S448x1 S131072x1 where
  lhsContracting := [1]
  rhsContracting := [0]
  lhsNonContracting := [0]
  rhsNonContracting := [1]
  lhsBatch := []
  rhsBatch := []
  wf := dot_S131072x448_S448x1_S131072x1_1_0_0_1_n_n_wf
def dot_S131072x7_S7x1_S131072x1_1_0_0_1_n_n : DotDims S131072x7 S7x1 S131072x1 where
  lhsContracting := [1]
  rhsContracting := [0]
  lhsNonContracting := [0]
  rhsNonContracting := [1]
  lhsBatch := []
  rhsBatch := []
  wf := dot_S131072x7_S7x1_S131072x1_1_0_0_1_n_n_wf
def dot_S131072x6_S6x1_S131072x1_1_0_0_1_n_n : DotDims S131072x6 S6x1 S131072x1 where
  lhsContracting := [1]
  rhsContracting := [0]
  lhsNonContracting := [0]
  rhsNonContracting := [1]
  lhsBatch := []
  rhsBatch := []
  wf := dot_S131072x6_S6x1_S131072x1_1_0_0_1_n_n_wf

class Facts : Prop extends Facts₀ where

variable [Facts]
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.Spec.lean ====
/-
  The computation both programs perform, row by row, written twice: once in the order and with the shortcuts the
  kernel takes, once as the reference spells it.

  A row x of 64 entries gives lg x_k = log |x_k|; a 64-wide product layer z0_j = sum_k lg x_k * Wpi(k,j) with
  y0_j = exp z0_j, and a one-wide one z1 = sum_k lg x_k * wsh_k with y1 = exp z1. Each y is expanded into seven
  features (y, sin y, cos y, tanh y, exp y, log|y|, 1/(1+exp(-y))); a "sum" head takes their weighted sum and a
  "product" head the exponential of the weighted sum of the logarithms of their absolute values. The four heads
  s0, p0 (over the 7*64 features of y0) and s1, p1 (over the 7 features of y1), with s0*s1 and p0*p1, are combined
  by six last weights.
-/
import Idealize.ShloMosaic.PureOps.Ideal
import Idealize.ShloMosaic.Lib.ValueIdx
import proofs.«137862_j43276090474803_2_alg».proof.Proof.LibBlocks

noncomputable section

open scoped BigOperators

namespace Cert.Spec

open Idealize.ShloMosaic Idealize.ShloMosaic.ValueIdx

/-- The words of +0.0 and of 1.0 as extended reals (they are 0 and 1). -/
abbrev Z : EReal := Ideal.ofBits .f32 0x00000000#32
abbrev One : EReal := Ideal.ofBits .f32 0x3F800000#32

/-- log |x| on the extended reals. -/
def lg (x : EReal) : EReal := Ideal.log (max x (-x))

/-- The 64-wide product layer before its exponential, at column j. -/
def z0 (xr : Fin 64 → EReal) (Wpi : Fin 64 → Fin 64 → EReal) (j : Fin 64) : EReal := ∑ k : Fin 64, lg (xr k) * Wpi k j
/-- The one-wide product layer before its exponential. -/
def z1 (xr : Fin 64 → EReal) (wsh : Fin 64 → EReal) : EReal := ∑ k : Fin 64, lg (xr k) * wsh k

/-! ## As the reference spells it -/

/-- 1 / (1 + exp (-y)), spelled with the word of 1.0. -/
def sigm (y : EReal) : EReal := Ideal.div One (One + Ideal.exp (-y))

/-- The seven features of a value. -/
def feat (i : Fin 7) (y : EReal) : EReal :=
  (![y, Ideal.sin y, Ideal.cos y, Ideal.tanh y, Ideal.exp y, lg y, sigm y] : Fin 7 → EReal) i

/-- Sum head over the 448 features of a 64-vector: feature k is feature k / 64 of entry k % 64. -/
def refS0 (y0 : Fin 64 → EReal) (W : Fin 448 → EReal) : EReal :=
  ∑ k : Fin 448, feat ⟨k.val / 64, by omega⟩ (y0 ⟨k.val % 64, by omega⟩) * W k
/-- Product head over the same 448 features. -/
def refP0 (y0 : Fin 64 → EReal) (W : Fin 448 → EReal) : EReal :=
  Ideal.exp (∑ k : Fin 448, lg (feat ⟨k.val / 64, by omega⟩ (y0 ⟨k.val % 64, by omega⟩)) * W k)
/-- Sum head over the 7 features of one value. -/
def refS1 (y1 : EReal) (w : Fin 7 → EReal) : EReal := ∑ k : Fin 7, feat k y1 * w k
/-- Product head over the 7 features of one value. -/
def refP1 (y1 : EReal) (w : Fin 7 → EReal) : EReal := Ideal.exp (∑ k : Fin 7, lg (feat k y1) * w k)

/-- The last layer: the four heads and the two products of heads against six weights. -/
def fin6 (s0 p0 s1 p1 : EReal) (wf : Fin 6 → EReal) : EReal :=
  s0 * wf 0 + p0 * wf 1 + s1 * wf 2 + p1 * wf 3 + s0 * s1 * wf 4 + p0 * p1 * wf 5

/-- One output entry as the reference computes it from a row and the weights. -/
def refRow (xr : Fin 64 → EReal) (Wpi : Fin 64 → Fin 64 → EReal) (wsh : Fin 64 → EReal) (Ws0 Wp0 : Fin 448 → EReal)
    (ws1 wp1 : Fin 7 → EReal) (wf : Fin 6 → EReal) : EReal :=
  fin6 (refS0 (fun j => Ideal.exp (z0 xr Wpi j)) Ws0) (refP0 (fun j => Ideal.exp (z0 xr Wpi j)) Wp0)
    (refS1 (Ideal.exp (z1 xr wsh)) ws1) (refP1 (Ideal.exp (z1 xr wsh)) wp1) wf

/-! ## As the kernel computes it -/

/-- The kernel's -softplus(-y), operation by operation (softplus as max(u,0) + log1p(exp(-|u|)) guarded by a
    comparison of u - 0 with itself). -/
def nsp (y : EReal) : EReal :=
  Z - Scalar.select (Ideal.cmp .one ((Z - y) - Z) ((Z - y) - Z)) ((Z - y) + Z)
        (max (Z - y) Z + Ideal.log1p (Ideal.exp (Z - max ((Z - y) - Z) (-((Z - y) - Z)))))

/-- The kernel's running sum-head accumulator for one value y and its seven weights. -/
def accS (y : EReal) (w : Fin 7 → EReal) : EReal :=
  Z + y * w 0 + Ideal.sin y * w 1 + Ideal.cos y * w 2 + Ideal.tanh y * w 3 + Ideal.exp y * w 4 + lg y * w 5
    + Ideal.logistic y * w 6

/-- The kernel's running product-head accumulator for y = exp z: it uses z for log|y|, y for log|exp y| and
    -softplus(-y) for log|sigmoid y|. -/
def accP (z y : EReal) (w : Fin 7 → EReal) : EReal :=
  Z + z * w 0 + lg (Ideal.sin y) * w 1 + lg (Ideal.cos y) * w 2 + lg (Ideal.tanh y) * w 3 + y * w 4
    + lg (lg y) * w 5 + nsp y * w 6

/-- One output entry as the kernel computes it, its 448 head weights arranged as 7 rows of 64. -/
def kerRow (xr : Fin 64 → EReal) (Wpi : Fin 64 → Fin 64 → EReal) (wsh : Fin 64 → EReal) (Ws0 Wp0 : Fin 7 → Fin 64 → EReal)
    (ws1 wp1 : Fin 7 → EReal) (wf : Fin 6 → EReal) : EReal :=
  fin6 (∑ j : Fin 64, accS (Ideal.exp (z0 xr Wpi j)) (fun i => Ws0 i j))
    (Ideal.exp (∑ j : Fin 64, accP (z0 xr Wpi j) (Ideal.exp (z0 xr Wpi j)) (fun i => Wp0 i j)))
    (accS (Ideal.exp (z1 xr wsh)) ws1) (Ideal.exp (accP (z1 xr wsh) (Ideal.exp (z1 xr wsh)) wp1)) wf

/-! ## The result array -/

/-- The whole result: entry (r, 0) is the reference's value of row r. -/
def G (x0 : (⟨2, ![131072, 64]⟩ : Shape).Idx → EReal) (x1 : (⟨2, ![64, 64]⟩ : Shape).Idx → EReal)
    (x2 : (⟨2, ![64, 1]⟩ : Shape).Idx → EReal) (x3 x4 : (⟨2, ![448, 1]⟩ : Shape).Idx → EReal)
    (x5 x6 : (⟨2, ![7, 1]⟩ : Shape).Idx → EReal) (x7 : (⟨2, ![6, 1]⟩ : Shape).Idx → EReal) :
    (⟨2, ![131072, 1]⟩ : Shape).Idx → EReal :=
  fun i => refRow (fun k => x0 (ix2 (i 0) k)) (fun k j => x1 (ix2 k j)) (fun k => x2 (ix2 k (0 : Fin 1)))
    (fun k => x3 (ix2 k (0 : Fin 1))) (fun k => x4 (ix2 k (0 : Fin 1))) (fun k => x5 (ix2 k (0 : Fin 1)))
    (fun k => x6 (ix2 k (0 : Fin 1))) (fun k => x7 (ix2 k (0 : Fin 1)))

end Cert.Spec

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.KerLayout.lean ====
/-
  Layout operations of the kernel's body read at explicit coordinates.

  A row vector of b entries (shape [1, b]) squeezed to [b], put back to [1, b] and repeated over a rows reads its
  entry j at (p, j). A vector of a*b entries cast to a column [a*b, 1] and then to an [a, b] tile keeps entry
  q = i*b + l at (i, l); the tile cast back to a column keeps (q / b, q % b) at (q, 0); a column of c entries cast to
  [1, 1, c] keeps entry q at (0, 0, q). A rectangle of one row (or one entry) cut out of a small array at a fixed
  offset reads the array at that row (entry).
-/
import Idealize.ShloMosaic.Lib.Pipeline.Value
import Idealize.ShloMosaic.Lib.ValueIdx
import Idealize.ShloMosaic.Lib.ValueLayout
import proofs.«137862_j43276090474803_2_alg».proof.Proof.LibLayout

namespace Cert.KerLayout

open Idealize.ShloMosaic Idealize.ShloMosaic.ValueIdx

variable {α : Type}

/-- A [1, b] row cast to [b], back to [1, b], and broadcast over a rows: entry (p, j) is the row's entry j. -/
theorem rowBroadcast_apply {a b : ℕ} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (j : Fin b) :
    broadcastTo ⟨2, ![a, b]⟩ (shapeCast ⟨2, ![1, b]⟩ (shapeCast ⟨1, ![b]⟩ v h1) h2) h3 (ix2 p j) = v (ix2 (0 : Fin 1) j) := by
  rw [broadcastTo_1b_ab_apply, shapeCast_a_1a_apply, shapeCast_1a_a_apply]

/-- A [1, b] row cast to its own shape and broadcast over a rows: entry (p, j) is the row's entry j. -/
theorem rowBroadcast_self_apply {a b : ℕ} (v : (⟨2, ![1, b]⟩ : Shape).Idx → α)
    (h2 : (⟨2, ![1, b]⟩ : Shape).ShapeCasts ⟨2, ![1, b]⟩)
    (h3 : (⟨2, ![1, b]⟩ : Shape).Broadcasts ⟨2, ![a, b]⟩) (p : Fin a) (j : Fin b) :
    broadcastTo ⟨2, ![a, b]⟩ (shapeCast ⟨2, ![1, b]⟩ v h2) h3 (ix2 p j) = v (ix2 (0 : Fin 1) j) := by
  rw [broadcastTo_1b_ab_apply, shapeCast_self]

/-- A vector of n entries cast to the column [n, 1] and then to an [a, b] tile (n = a * b): entry (i, l) is the
    vector's entry i * b + l. -/
theorem tile_of_vector_apply {n a b : ℕ} (v : (⟨1, ![n]⟩ : Shape).Idx → α)
    (h1 : (⟨1, ![n]⟩ : Shape).ShapeCasts ⟨2, ![n, 1]⟩) (h2 : (⟨2, ![n, 1]⟩ : Shape).ShapeCasts ⟨2, ![a, b]⟩)
    (i : Fin a) (l : Fin b) (q : Fin n) (hq : q.val = i.val * b + l.val) :
    shapeCast ⟨2, ![a, b]⟩ (shapeCast ⟨2, ![n, 1]⟩ v h1) h2 (ix2 i l) = v (ix1 q) := by
  rw [shapeCast_apply (shapeCast ⟨2, ![n, 1]⟩ v h1) h2 (ix2 i l) (ix2 q (0 : Fin 1)) (by
    rw [Shape.rowMajor_val_two, Shape.rowMajor_val_two]
    show q.val * 1 + 0 = i.val * b + l.val
    omega)]
  exact shapeCast_a_a1_apply v h1 q 0

/-- An [a, b] tile cast to the column [n, 1] (n = a * b): entry (q, 0) is the tile's entry (q / b, q % b). -/
theorem column_of_tile_apply {n a b : ℕ} (v : (⟨2, ![a, b]⟩ : Shape).Idx → α)
    (h : (⟨2, ![a, b]⟩ : Shape).ShapeCasts ⟨2, ![n, 1]⟩) (q : Fin n) (u : Fin 1) (i : Fin a) (l : Fin b)
    (hq : q.val = i.val * b + l.val) :
    shapeCast ⟨2, ![n, 1]⟩ v h (ix2 q u) = v (ix2 i l) :=
  shapeCast_apply v h _ _ (by
    have hu : u.val = 0 := by omega
    rw [Shape.rowMajor_val_two, Shape.rowMajor_val_two]
    show i.val * b + l.val = q.val * 1 + u.val
    omega)

/-- A column [c, 1] cast to [1, 1, c]: entry (0, 0, q) is the column's entry q. -/
theorem lane_of_column_apply {c : ℕ} (v : (⟨2, ![c, 1]⟩ : Shape).Idx → α)
    (h : (⟨2, ![c, 1]⟩ : Shape).ShapeCasts ⟨3, ![1, 1, c]⟩) (u u' : Fin 1) (q : Fin c) :
    shapeCast ⟨3, ![1, 1, c]⟩ v h (ix3 u u' q) = v (ix2 q (0 : Fin 1)) :=
  shapeCast_apply v h _ _ (by
    have hu : u.val = 0 := by omega
    have hu' : u'.val = 0 := by omega
    rw [Shape.rowMajor_val_two, Shape.rowMajor_val_three]
    show q.val * 1 + 0 = (u.val * 1 + u'.val) * c + q.val
    rw [hu, hu']; omega)

end Cert.KerLayout
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.KerRead.lean ====
/-
  The kernel's body read at coordinates, first half: the 64-wide layers.

  Local row p of a block of 4096 rows: lg x, the product layer z0 = (lg x) Wpi by the matrix unit, y0 = exp z0, and
  the two heads over the seven features of each y0 entry, accumulated feature by feature against the rows of the
  two 7 x 64 weight tables and then summed along the row.
-/
import proofs.«137862_j43276090474803_2_alg».proof.Proof.Gen.KernelIdeal.Frame
import proofs.«137862_j43276090474803_2_alg».proof.Proof.Spec
import proofs.«137862_j43276090474803_2_alg».proof.Proof.KerLayout
import proofs.«137862_j43276090474803_2_alg».proof.Proof.LibRows
import proofs.«137862_j43276090474803_2_alg».proof.Proof.LibPlainDot
import Idealize.ShloMosaic.PureOps.Ideal.Laws

noncomputable section

open scoped BigOperators

namespace Cert.KerRead

open Idealize.ShloMosaic Idealize.ShloMosaic.ValueIdx Cert.KernelIdeal Cert.KernelIdeal.Gen Cert.Spec

/-- A loaded weight row as the body uses it: squeezed, put back, repeated over the 4096 rows. -/
def bc (w : Vec Ideal S1x64 .f32) : FVec Ideal S4096x64 .f32 :=
  broadcastTo S4096x64 (shapeCast S1x64 (shapeCast S64 w shapeCasts_S1x64_S64) shapeCasts_S64_S1x64) broadcasts_S1x64_S4096x64

theorem bc_at (w : Vec Ideal S1x64 .f32) (p : Fin 4096) (j : Fin 64) : bc w (ix2 p j) = w (ix2 (0 : Fin 1) j) :=
  Cert.KerLayout.rowBroadcast_apply (a := 4096) (b := 64) w _ _ _ p j

/-- Entry j of a loaded weight row. -/
def row (w : Vec Ideal S1x64 .f32) (j : Fin 64) : EReal := w (ix2 (0 : Fin 1) j)

/-- log |x| entry by entry. -/
theorem pay1_at (x0 : Vec Ideal S4096x64 .f32) (p : Fin 4096) (k : Fin 64) :
    k0_pay1 (F := Ideal) x0 (ix2 p k) = lg (x0 (ix2 p k)) := rfl

/-- The matrix unit's product: row p of lg x against column j of Wpi. -/
theorem pay2_at (x0 : Vec Ideal S4096x64 .f32) (x1 : Vec Ideal S64x64 .bf16) (p : Fin 4096) (j : Fin 64) :
    k0_pay2 (F := Ideal) x0 x1 (ix2 p j) = z0 (fun k => x0 (ix2 p k)) (fun k j => x1 (ix2 k j)) j := by
  unfold k0_pay2 z0
  dsimp only
  rw [shapeCast_self]
  refine (Cert.LibPlainDot.matmul_plain_apply (φ₁ := .bf16) (φ₂ := .bf16) dot_S4096x64_S64x64_S4096x64_1_0_0_1_n_n
    rfl rfl rfl rfl rfl rfl none (truncf .bf16 (k0_pay1 x0) bitsLt_bf16_f32) x1 p j).trans ?_
  rfl

/-- y0 = exp z0. -/
theorem pay3_at (x0 : Vec Ideal S4096x64 .f32) (x1 : Vec Ideal S64x64 .bf16) (p : Fin 4096) (j : Fin 64) :
    k0_pay3 (F := Ideal) x0 x1 (ix2 p j) = Ideal.exp (z0 (fun k => x0 (ix2 p k)) (fun k j => x1 (ix2 k j)) j) := by
  show Ideal.exp (k0_pay2 (F := Ideal) x0 x1 (ix2 p j)) = _
  rw [pay2_at]

/-- The sum head's accumulator at (p, j), over the seven features of y0 (p, j). -/
theorem accS64_at (x0 : Vec Ideal S4096x64 .f32) (x1 : Vec Ideal S64x64 .bf16) (w0 w1 w2 w3 w4 w5 w6 : Vec Ideal S1x64 .f32)
    (p : Fin 4096) (j : Fin 64) :
    addf (addf (k0_pay13 (k0_pay3 x0 x1) (k0_pay10 x0 x1 w0 w1) w2 w3 w4)
        (mulf (k0_pay16 (k0_pay15 (k0_pay3 (F := Ideal) x0 x1))) (bc w5))) (mulf (logistic (k0_pay3 x0 x1)) (bc w6)) (ix2 p j)
      = accS (k0_pay3 x0 x1 (ix2 p j))
          (![row w0 j, row w1 j, row w2 j, row w3 j,
             row w4 j, row w5 j, row w6 j] : Fin 7 → EReal) := by
  show Z + k0_pay3 x0 x1 (ix2 p j) * bc w0 (ix2 p j) + Ideal.sin (k0_pay3 x0 x1 (ix2 p j)) * bc w1 (ix2 p j)
      + Ideal.cos (k0_pay3 x0 x1 (ix2 p j)) * bc w2 (ix2 p j) + Ideal.tanh (k0_pay3 x0 x1 (ix2 p j)) * bc w3 (ix2 p j)
      + Ideal.exp (k0_pay3 x0 x1 (ix2 p j)) * bc w4 (ix2 p j) + lg (k0_pay3 x0 x1 (ix2 p j)) * bc w5 (ix2 p j)
      + Ideal.logistic (k0_pay3 x0 x1 (ix2 p j)) * bc w6 (ix2 p j) = _
  rw [bc_at, bc_at, bc_at, bc_at, bc_at, bc_at, bc_at]
  rfl

/-- The product head's accumulator at (p, j): z0 stands for log |y0|, y0 for log |exp y0|, and the kernel's
    -softplus(-y0) for log |sigmoid y0|. -/
theorem accP64_at (x0 : Vec Ideal S4096x64 .f32) (x1 : Vec Ideal S64x64 .bf16) (w0 w1 w2 w3 w4 w5 w6 : Vec Ideal S1x64 .f32)
    (p : Fin 4096) (j : Fin 64) :
    k0_pay17 (k0_pay3 x0 x1) (k0_pay14 (k0_pay3 x0 x1) (k0_pay6 x0 x1 w0) (k0_pay8 x0 x1) (k0_pay9 w1) w2 w3 w4)
        (k0_pay15 (k0_pay3 (F := Ideal) x0 x1)) w5 w6 (ix2 p j)
      = accP (k0_pay2 x0 x1 (ix2 p j)) (k0_pay3 x0 x1 (ix2 p j))
          (![row w0 j, row w1 j, row w2 j, row w3 j,
             row w4 j, row w5 j, row w6 j] : Fin 7 → EReal) := by
  show Z + k0_pay2 x0 x1 (ix2 p j) * bc w0 (ix2 p j) + lg (Ideal.sin (k0_pay3 x0 x1 (ix2 p j))) * bc w1 (ix2 p j)
      + lg (Ideal.cos (k0_pay3 x0 x1 (ix2 p j))) * bc w2 (ix2 p j) + lg (Ideal.tanh (k0_pay3 x0 x1 (ix2 p j))) * bc w3 (ix2 p j)
      + k0_pay3 x0 x1 (ix2 p j) * bc w4 (ix2 p j) + lg (lg (k0_pay3 x0 x1 (ix2 p j))) * bc w5 (ix2 p j)
      + nsp (k0_pay3 x0 x1 (ix2 p j)) * bc w6 (ix2 p j) = _
  rw [bc_at, bc_at, bc_at, bc_at, bc_at, bc_at, bc_at]
  rfl

/-- The sum head s0 of local row q: the row sum of the accumulator. -/
theorem S0_at (x0 : Vec Ideal S4096x64 .f32) (x1 : Vec Ideal S64x64 .bf16) (w0 w1 w2 w3 w4 w5 w6 : Vec Ideal S1x64 .f32)
    (q : Fin 4096) (u : Fin 1) :
    k0_pay19 (k0_pay18 (k0_pay3 x0 x1) (k0_pay13 (k0_pay3 x0 x1) (k0_pay10 x0 x1 w0 w1) w2 w3 w4)
        (k0_pay15 (k0_pay3 (F := Ideal) x0 x1)) w5 w6) (ix2 q u)
      = ∑ j : Fin 64, accS (Ideal.exp (z0 (fun k => x0 (ix2 q k)) (fun k j => x1 (ix2 k j)) j))
          (![row w0 j, row w1 j, row w2 j, row w3 j,
             row w4 j, row w5 j, row w6 j] : Fin 7 → EReal) := by
  unfold k0_pay19
  rw [shapeCast_a_a1_apply]
  unfold k0_pay18
  dsimp only
  refine (rowSum_apply _ _ _ _ _ q).trans (Finset.sum_congr rfl fun j _ => ?_)
  refine (accS64_at x0 x1 w0 w1 w2 w3 w4 w5 w6 q j).trans ?_
  rw [pay3_at]

/-- The product head p0 of local row q: the exponential of the row sum of the accumulator. -/
theorem P0_at (x0 : Vec Ideal S4096x64 .f32) (x1 : Vec Ideal S64x64 .bf16) (w0 w1 w2 w3 w4 w5 w6 : Vec Ideal S1x64 .f32)
    (q : Fin 4096) (u : Fin 1) :
    k0_pay20 (k0_pay17 (k0_pay3 x0 x1) (k0_pay14 (k0_pay3 x0 x1) (k0_pay6 x0 x1 w0) (k0_pay8 x0 x1) (k0_pay9 w1) w2 w3 w4)
        (k0_pay15 (k0_pay3 (F := Ideal) x0 x1)) w5 w6) (ix2 q u)
      = Ideal.exp (∑ j : Fin 64, accP (z0 (fun k => x0 (ix2 q k)) (fun k j => x1 (ix2 k j)) j)
          (Ideal.exp (z0 (fun k => x0 (ix2 q k)) (fun k j => x1 (ix2 k j)) j))
          (![row w0 j, row w1 j, row w2 j, row w3 j,
             row w4 j, row w5 j, row w6 j] : Fin 7 → EReal)) := by
  unfold k0_pay20
  dsimp only
  show Ideal.exp (shapeCast S4096x1 _ shapeCasts_S4096_S4096x1 (ix2 q u)) = _
  rw [shapeCast_a_a1_apply]
  refine congrArg Ideal.exp ?_
  refine (rowSum_apply _ _ _ _ _ q).trans (Finset.sum_congr rfl fun j _ => ?_)
  refine (accP64_at x0 x1 w0 w1 w2 w3 w4 w5 w6 q j).trans ?_
  rw [pay3_at, pay2_at]

end Cert.KerRead

end
-- ==== Proof.KerRead2.lean ====
/-
  The kernel's body read at coordinates, second half: the one-wide layer, its two heads, and the last layer.

  The one-wide product layer z1 of local row q is a row sum; the kernel lays the 4096 values out as a 32 x 128 tile
  (row q at (q / 128, q % 128)), runs the seven features and the two accumulators there against scalar weights, and
  lays the results back as a column. The last layer combines the four heads entry by entry and the column is
  written as the block's one lane row.
-/
import proofs.«137862_j43276090474803_2_alg».proof.Proof.KerRead

noncomputable section

open scoped BigOperators

namespace Cert.KerRead

open Idealize.ShloMosaic Idealize.ShloMosaic.ValueIdx Cert.KernelIdeal Cert.KernelIdeal.Gen Cert.Spec

/-- A scalar weight as the body reads it: the one entry of a one-entry load. -/
def sc (s : Vec Ideal S1 .f32) : EReal := extractAt ![0] s inpos_S1_p0

/-- The one-wide layer before its exponential, on the tile: entry (a, b) is z1 of local row a * 128 + b. -/
theorem pay4_at (x0 : Vec Ideal S4096x64 .f32) (x2 : Vec Ideal S1x64 .f32) (a : Fin 32) (b : Fin 128) (q : Fin 4096)
    (hq : q.val = a.val * 128 + b.val) :
    k0_pay4 (F := Ideal) x0 x2 (ix2 a b) = z1 (fun k => x0 (ix2 q k)) (fun k => x2 (ix2 (0 : Fin 1) k)) := by
  unfold k0_pay4 z1
  dsimp only
  rw [Cert.KerLayout.tile_of_vector_apply _ _ _ a b q hq]
  refine (rowSum_apply _ _ _ _ _ q).trans (Finset.sum_congr rfl fun k _ => ?_)
  show k0_pay1 x0 (ix2 q k) * broadcastTo S4096x64 (shapeCast S1x64 x2 shapeCasts_S1x64_S1x64) broadcasts_S1x64_S4096x64 (ix2 q k) = _
  rw [Cert.KerLayout.rowBroadcast_self_apply]
  rfl

/-- y1 = exp z1 on the tile. -/
theorem pay5_at (x0 : Vec Ideal S4096x64 .f32) (x2 : Vec Ideal S1x64 .f32) (a : Fin 32) (b : Fin 128) :
    k0_pay5 (F := Ideal) x0 x2 (ix2 a b) = Ideal.exp (k0_pay4 x0 x2 (ix2 a b)) := rfl

/-- The one-wide sum head's accumulator on the tile. -/
theorem accS1_at (v15 : FVec Ideal S32x128 .f32) (s0 s1 s2 s3 s4 s5 s6 : Vec Ideal S1 .f32) (a : Fin 32) (b : Fin 128) :
    addf (k0_pay30 v15 (k0_pay23 v15 s0 s1 s2) (k0_pay25 v15) (k0_pay27 s3) s4 s5)
        (mulf (k0_pay32 v15) (broadcast S32x128 (extractAt ![0] s6 inpos_S1_p0))) (ix2 a b)
      = accS (v15 (ix2 a b)) (![sc s0, sc s1, sc s2, sc s3, sc s4, sc s5, sc s6] : Fin 7 → EReal) := rfl

/-- The one-wide product head's accumulator on the tile. -/
theorem accP1_at (v14 v15 : FVec Ideal S32x128 .f32) (s0 s1 s2 s3 s4 s5 s6 : Vec Ideal S1 .f32) (a : Fin 32) (b : Fin 128) :
    addf (k0_pay31 v15 (k0_pay24 v14 v15 s0 s1 s2) (k0_pay26 v15) (k0_pay28 s3) s4 s5)
        (mulf (k0_pay33 v15) (broadcast S32x128 (extractAt ![0] s6 inpos_S1_p0))) (ix2 a b)
      = accP (v14 (ix2 a b)) (v15 (ix2 a b)) (![sc s0, sc s1, sc s2, sc s3, sc s4, sc s5, sc s6] : Fin 7 → EReal) := rfl

/-- The last layer at lane q of the block's one row, from the four heads: the 64-wide ones as columns, the
    one-wide ones on the tile at (a, b) with q = a * 128 + b. -/
theorem pay34_at (v136 v139 : FVec Ideal S4096x1 .f32) (v212 v215 v216 v234 : FVec Ideal S32x128 .f32)
    (v235 v237 v248 v250 v252 v254 v256 v258 : Vec Ideal S1 .f32) (q : Fin 4096) (a : Fin 32) (b : Fin 128)
    (hq : q.val = a.val * 128 + b.val) :
    k0_pay34 v136 v139 v212 v215 v216 v234 v235 v237 v248 v250 v252 v254 v256 v258 (ix3 (0 : Fin 1) (0 : Fin 1) q)
      = fin6 (v136 (ix2 q (0 : Fin 1))) (v139 (ix2 q (0 : Fin 1)))
          (addf v212 (mulf v216 (broadcast S32x128 (extractAt ![0] v235 inpos_S1_p0))) (ix2 a b))
          (Ideal.exp (addf v215 (mulf v234 (broadcast S32x128 (extractAt ![0] v237 inpos_S1_p0))) (ix2 a b)))
          (![sc v248, sc v250, sc v252, sc v254, sc v256, sc v258] : Fin 6 → EReal) := by
  unfold k0_pay34
  rw [Cert.KerLayout.lane_of_column_apply]
  simp only [addf_apply, mulf_apply, broadcast_apply]
  rw [Cert.KerLayout.column_of_tile_apply _ _ q (0 : Fin 1) a b hq, Cert.KerLayout.column_of_tile_apply _ _ q (0 : Fin 1) a b hq]
  rfl

end Cert.KerRead

end
-- ==== Proof.KerOut.lean ====
/-
  What the kernel's body leaves in its output block, lane by lane: lane q of the block's one row is the kernel's
  row function of local row q of the x block and of the weight arrays.
-/
import proofs.«137862_j43276090474803_2_alg».proof.Proof.KerRead2

noncomputable section

open scoped BigOperators

namespace Cert.KerRead

open Idealize.ShloMosaic Idealize.ShloMosaic.ValueIdx Cert.KernelIdeal Cert.KernelIdeal.Gen Cert.Spec

theorem hz2 : (![0, 0] : Fin 2 → Nat) = fun _ => 0 := funext fun a => by fin_cases a <;> rfl
theorem hz3 : (![0, 0, 0] : Fin 3 → Nat) = fun _ => 0 := funext fun a => by fin_cases a <;> rfl

/-- The one-row rectangle at row o of a 7 x 64 table reads the table's row o. -/
theorem ldrow_at (x : Vec Ideal S7x64 .f32) (o : ℕ) (inb : ∀ a, (![o, 0] : Fin 2 → ℕ) a + S1x64.size a ≤ S7x64.size a) (j : Fin 64) :
    row (View.ld x (Rect.unit (s := S7x64) ![o, 0] S1x64.size inb)) j
      = x (ix2 (⟨o, Nat.lt_of_succ_le (inb 0)⟩ : Fin 7) j) := by
  show x _ = x _
  refine congrArg x (funext fun d => Fin.ext ?_)
  match d with
  | ⟨0, _⟩ => show o + 1 * 0 = o; omega
  | ⟨1, _⟩ => show 0 + 1 * j.val = j.val; omega

/-- The one-entry rectangle at position o of a vector reads the vector's entry o. -/
theorem ldsc_at (n : ℕ) (x : Vec Ideal ⟨1, ![n]⟩ .f32) (o : ℕ)
    (inb : ∀ a, (![o] : Fin 1 → ℕ) a + S1.size a ≤ (⟨1, ![n]⟩ : Shape).size a) :
    sc (View.ld x (Rect.unit (s := ⟨1, ![n]⟩) ![o] S1.size inb)) = x (ix1 (⟨o, Nat.lt_of_succ_le (inb 0)⟩ : Fin n)) := by
  show x _ = x _
  refine congrArg x (funext fun d => Fin.ext ?_)
  match d with
  | ⟨0, _⟩ => show o + 1 * 0 = o; omega

/-- Lane q of the output block, q = a * 128 + b. -/
theorem out_at (x0 : Vec Ideal S4096x64 .f32) (x1 : Vec Ideal S64x64 .bf16) (x2 : Vec Ideal S1x64 .f32)
    (x3 x4 : Vec Ideal S7x64 .f32) (x5 x6 : Vec Ideal S7 .f32) (x7 : Vec Ideal S6 .f32)
    (q : Fin 4096) (a : Fin 32) (b : Fin 128) (hq : q.val = a.val * 128 + b.val) :
    out0_8 (F := Ideal) x0 x1 x2 x3 x4 x5 x6 x7 (ix3 (0 : Fin 1) (0 : Fin 1) q)
      = kerRow (fun k => x0 (ix2 q k)) (fun k j => x1 (ix2 k j)) (fun k => x2 (ix2 (0 : Fin 1) k))
          (fun i j => x3 (ix2 i j)) (fun i j => x4 (ix2 i j)) (fun i => x5 (ix1 i)) (fun i => x6 (ix1 i)) (fun i => x7 (ix1 i)) := by
  unfold out0_8
  rw [View.canon_unit_zero hz3]
  simp only [View.ld_unit_zero (S := S4096x64) hz2, View.ld_unit_zero (S := S64x64) hz2, View.ld_unit_zero (S := S1x64) hz2]
  rw [pay34_at _ _ _ _ _ _ _ _ _ _ _ _ _ _ q a b hq, S0_at, P0_at, accS1_at, accP1_at, pay5_at, pay4_at x0 x2 a b q hq]
  simp only [ldrow_at, ldsc_at]
  rfl

end Cert.KerRead

end
-- ==== Proof.Algebra.lean ====
/-
  The algebra of one output entry: the kernel's order of summation and its three shortcuts give the value the
  reference spells out.

  Everything here is about extended reals. Addition and multiplication there are commutative and associative, so
  finite sums may be regrouped and reordered; no distributivity and no cancellation is used, and no finiteness
  of any entry is assumed.

  The three shortcuts hold because the value y they are taken at is an exponential, hence 0 ≤ y ≤ ⊤:
    log |exp z| = z for every extended real z (used for log |y| with y = exp z, and for log |exp y|), and
    log |1 / (1 + exp (-y))| = -softplus (-y) for 0 ≤ y.
-/
import Mathlib.Algebra.BigOperators.Fin
import Mathlib.Analysis.SpecialFunctions.Log.Basic
import Idealize.ShloMosaic.PureOps.Ideal
import Idealize.ShloMosaic.PureOps.Ideal.Laws
import Idealize.ShloMosaic.Lib.IdealHost
import proofs.«137862_j43276090474803_2_alg».proof.Proof.Spec

noncomputable section

open scoped BigOperators

namespace Cert.Spec

open Idealize.ShloMosaic Cert.LibBlocks

/-! ## The two constants -/

theorem Z_eq : Z = 0 := Ideal.ofBits_zero_f32
theorem One_eq : One = 1 := Ideal.ofBits_one_f32

/-- The reference's 1 / (1 + exp (-y)) is the logistic function. -/
theorem sigm_eq (y : EReal) : sigm y = Ideal.logistic y := by
  unfold sigm Ideal.logistic
  rw [One_eq]

/-! ## The exponential and the logarithm of the absolute value -/

/-- An exponential is never negative. -/
theorem exp_nonneg (z : EReal) : 0 ≤ Ideal.exp z := by
  induction z using EReal.rec with
  | bot => rw [Ideal.exp_bot]
  | coe r => rw [Ideal.exp_coe]; exact EReal.coe_nonneg.mpr (Real.exp_pos r).le
  | top => rw [Ideal.exp_top]; exact le_top

/-- log |exp z| = z, at both infinities too: exp ⊥ = 0 and log 0 = ⊥; exp ⊤ = ⊤ and log ⊤ = ⊤. -/
theorem lg_exp (z : EReal) : lg (Ideal.exp z) = z := by
  unfold lg
  induction z using EReal.rec with
  | bot =>
    rw [Ideal.exp_bot, neg_zero, max_self, ← EReal.coe_zero, Ideal.log_coe, if_pos le_rfl]
  | coe r =>
    rw [Ideal.exp_coe]
    have hpos : (0 : ℝ) < Real.exp r := Real.exp_pos r
    have h1 : -((Real.exp r : ℝ) : EReal) ≤ ((Real.exp r : ℝ) : EReal) := by
      rw [← EReal.coe_neg]; exact EReal.coe_le_coe_iff.mpr (by linarith)
    rw [max_eq_left h1, Ideal.log_coe, if_neg (not_le.mpr hpos), Real.log_exp]
  | top =>
    rw [Ideal.exp_top, EReal.neg_top, max_eq_left bot_le, Ideal.log_top]

/-! ## The kernel's -softplus(-y) -/

/-- A comparison "a ≠ a" is false, so a selection guarded by it takes its second branch. -/
theorem select_ne_self {α : Type} (a : EReal) (u v : α) :
    Scalar.select (Ideal.cmp .one a a) u v = v := by
  simp [Scalar.select, Ideal.cmp]

/-- The kernel's expression with the word of +0.0 read as 0. -/
theorem nsp_eq (y : EReal) :
    nsp y = -(max (-y) 0 + Ideal.log1p (Ideal.exp (-(max (-y) y)))) := by
  unfold nsp
  rw [select_ne_self, Z_eq]
  simp only [zero_sub, sub_zero, neg_neg]

/-- log |1 / (1 + exp (-y))| = -softplus (-y) for 0 ≤ y ≤ ⊤. -/
theorem lg_sigm_eq_nsp (y : EReal) (hy : 0 ≤ y) : lg (sigm y) = nsp y := by
  rw [sigm_eq, nsp_eq]
  induction y using EReal.rec with
  | bot => exact absurd hy (by simp)
  | coe r =>
    have hr : (0 : ℝ) ≤ r := EReal.coe_nonneg.mp hy
    have ht : (0 : ℝ) < 1 + Real.exp (-r) := by positivity
    have hpos : (0 : ℝ) < (1 + Real.exp (-r))⁻¹ := inv_pos.mpr ht
    have h1 : -(((1 + Real.exp (-r))⁻¹ : ℝ) : EReal) ≤ (((1 + Real.exp (-r))⁻¹ : ℝ) : EReal) := by
      rw [← EReal.coe_neg]; exact EReal.coe_le_coe_iff.mpr (by linarith)
    have h2 : ((-r : ℝ) : EReal) ≤ 0 := EReal.coe_nonpos.mpr (by linarith)
    have h3 : ((-r : ℝ) : EReal) ≤ (r : EReal) := EReal.coe_le_coe_iff.mpr (by linarith)
    unfold lg Ideal.log1p
    rw [Ideal.logistic_coe, max_eq_left h1, Ideal.log_coe, if_neg (not_le.mpr hpos), Real.log_inv]
    rw [← EReal.coe_neg r, max_eq_right h2, max_eq_right h3, ← EReal.coe_neg r, Ideal.exp_coe, zero_add,
      ← EReal.coe_one, ← EReal.coe_add, Ideal.log_coe, if_neg (not_le.mpr ht), ← EReal.coe_neg]
  | top =>
    have h1 : -(1 : EReal) ≤ 1 := by
      rw [← EReal.coe_one, ← EReal.coe_neg]; exact EReal.coe_le_coe_iff.mpr (by norm_num)
    unfold lg Ideal.log1p
    rw [Ideal.logistic_top, max_eq_left h1, EReal.neg_top, max_eq_right bot_le, max_eq_right bot_le, EReal.neg_top,
      Ideal.exp_bot, add_zero, zero_add, ← EReal.coe_one, Ideal.log_coe, if_neg (by norm_num), Real.log_one,
      EReal.coe_zero, neg_zero]

/-! ## The seven features -/

theorem feat_zero (y : EReal) : feat 0 y = y := rfl
theorem feat_one (y : EReal) : feat 1 y = Ideal.sin y := rfl
theorem feat_two (y : EReal) : feat 2 y = Ideal.cos y := rfl
theorem feat_three (y : EReal) : feat 3 y = Ideal.tanh y := rfl
theorem feat_four (y : EReal) : feat 4 y = Ideal.exp y := rfl
theorem feat_five (y : EReal) : feat 5 y = lg y := rfl
theorem feat_six (y : EReal) : feat 6 y = sigm y := rfl

/-- The weighted sum of the seven features of a value is the kernel's sum-head accumulator. -/
theorem sum7_S (y : EReal) (w : Fin 7 → EReal) : ∑ i : Fin 7, feat i y * w i = accS y w := by
  unfold accS
  rw [Fin.sum_univ_seven, feat_zero, feat_one, feat_two, feat_three, feat_four, feat_five, feat_six, Z_eq,
    zero_add, sigm_eq]

/-- The weighted sum of the logarithms of the absolute values of the seven features of y = exp z is the kernel's
    product-head accumulator, which takes z for log |y|, y for log |exp y| and -softplus(-y) for
    log |1 / (1 + exp (-y))|. -/
theorem sum7_P (z : EReal) (w : Fin 7 → EReal) :
    ∑ i : Fin 7, lg (feat i (Ideal.exp z)) * w i = accP z (Ideal.exp z) w := by
  unfold accP
  rw [Fin.sum_univ_seven, feat_zero, feat_one, feat_two, feat_three, feat_four, feat_five, feat_six, Z_eq,
    zero_add, lg_exp z, lg_exp (Ideal.exp z), lg_sigm_eq_nsp _ (exp_nonneg z)]

/-! ## The 448 features as 7 stretches of 64 -/

theorem entry_div (a : Fin 7) (b : Fin 64) (h : (entry a b).val / 64 < 7) :
    (⟨(entry a b).val / 64, h⟩ : Fin 7) = a := by
  apply Fin.ext
  show (a.val * 64 + b.val) / 64 = a.val
  omega

theorem entry_mod (a : Fin 7) (b : Fin 64) (h : (entry a b).val % 64 < 64) :
    (⟨(entry a b).val % 64, h⟩ : Fin 64) = b := by
  apply Fin.ext
  show (a.val * 64 + b.val) % 64 = b.val
  omega

/-- A sum over 448 = 7 * 64 entries whose term k depends on k / 64 and k % 64, regrouped by k % 64. -/
theorem sum_blocks (F : Fin 7 → Fin 64 → EReal) (W : Fin 448 → EReal) :
    (∑ k : Fin 448, F ⟨k.val / 64, by omega⟩ ⟨k.val % 64, by omega⟩ * W k)
      = ∑ j : Fin 64, ∑ i : Fin 7, F i j * W (entry i j) := by
  rw [Finset.sum_comm]
  refine (sum_entries (A := 7) (B := 64) _).trans ?_
  refine Finset.sum_congr rfl fun a _ => Finset.sum_congr rfl fun b _ => ?_
  rw [entry_div, entry_mod]

/-! ## The four heads -/

theorem refS0_eq (y : Fin 64 → EReal) (W : Fin 448 → EReal) :
    refS0 y W = ∑ j : Fin 64, accS (y j) (fun i => W (entry i j)) := by
  unfold refS0
  refine (sum_blocks (fun i j => feat i (y j)) W).trans ?_
  exact Finset.sum_congr rfl fun j _ => sum7_S (y j) _

theorem refP0_eq (z : Fin 64 → EReal) (W : Fin 448 → EReal) :
    refP0 (fun j => Ideal.exp (z j)) W
      = Ideal.exp (∑ j : Fin 64, accP (z j) (Ideal.exp (z j)) (fun i => W (entry i j))) := by
  unfold refP0
  refine congrArg Ideal.exp ?_
  refine (sum_blocks (fun i j => lg (feat i (Ideal.exp (z j)))) W).trans ?_
  exact Finset.sum_congr rfl fun j _ => sum7_P (z j) _

theorem refS1_eq (y : EReal) (w : Fin 7 → EReal) : refS1 y w = accS y w := sum7_S y w

theorem refP1_eq (z : EReal) (w : Fin 7 → EReal) :
    refP1 (Ideal.exp z) w = Ideal.exp (accP z (Ideal.exp z) w) := by
  unfold refP1
  rw [sum7_P]

/-! ## One output entry -/

/-- The kernel's value of a row is the reference's, the 448 head weights read as 7 stretches of 64. -/
theorem ker_eq_ref (xr : Fin 64 → EReal) (Wpi : Fin 64 → Fin 64 → EReal) (wsh : Fin 64 → EReal)
    (Ws0 Wp0 : Fin 448 → EReal) (ws1 wp1 : Fin 7 → EReal) (wf : Fin 6 → EReal) :
    kerRow xr Wpi wsh (fun i j => Ws0 (Cert.LibBlocks.entry i j)) (fun i j => Wp0 (Cert.LibBlocks.entry i j))
        ws1 wp1 wf
      = refRow xr Wpi wsh Ws0 Wp0 ws1 wp1 wf := by
  unfold kerRow refRow
  rw [refS0_eq, refP0_eq (z0 xr Wpi) Wp0, refS1_eq, refP1_eq (z1 xr wsh)]

end Cert.Spec

end
-- ==== Proof.KerBlocks.lean ====
/-
  From blocks to the array: what each grid point reads and writes back, and the array the region leaves.

  Grid point t (of 32) reads rows 4096 t .. 4096 t + 4095 of x and the whole of every weight array, as the host
  lines before the region left them (W_pi converted to bf16, which changes nothing on the extended reals;
  W_shortcut transposed to a row; the two 448-entry head tables cut into 7 rows of 64; the 7- and 6-entry columns
  as vectors), and writes row t of the [32, 1, 4096] result: lane q of that row is the value of row 4096 t + q.
-/
import proofs.«137862_j43276090474803_2_alg».proof.Proof.KerOut
import proofs.«137862_j43276090474803_2_alg».proof.Proof.Algebra
import Idealize.ShloMosaic.Lib.StableHlo.Run

noncomputable section

open scoped BigOperators

namespace Cert.KerBlocks

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ)

/-! ## The index maps, decided over the 32 grid points -/

theorem idx0 : ∀ t : Fin cfg0.N, win0_0.index t (0 : Fin 2) = t.val ∧ win0_0.index t (1 : Fin 2) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idxW : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0 :=
  (by decide +kernel : ∀ t : Fin grid0.N, _)

/-! ## The weight arrays as the region finds them -/

theorem V_v0 (c : Dev nD) : V m c main_v0 = (truncf .bf16 (m ((c : Thread nD τ).loc main_arg1)) bitsLt_bf16_f32 : FVec Ideal S64x64 .bf16) := by
  show StableHlo.after hostOps0 (fun b => m (c, b)) (Proc.devRef .tc main_v0) = _
  after_results
  try rfl
theorem V_v1 (c : Dev nD) : V m c main_v1 = (transpose S1x64 [1, 0] (m ((c : Thread nD τ).loc main_arg2)) transposes_S64x1_S1x64_1_0 : FVec Ideal S1x64 .f32) := by
  show StableHlo.after hostOps0 (fun b => m (c, b)) (Proc.devRef .tc main_v1) = _
  after_results
  try rfl
theorem V_v2 (c : Dev nD) : V m c main_v2 = (shapeCast S7x64 (m ((c : Thread nD τ).loc main_arg3)) shapeCasts_S448x1_S7x64 : FVec Ideal S7x64 .f32) := by
  show StableHlo.after hostOps0 (fun b => m (c, b)) (Proc.devRef .tc main_v2) = _
  after_results
  try rfl
theorem V_v3 (c : Dev nD) : V m c main_v3 = (shapeCast S7x64 (m ((c : Thread nD τ).loc main_arg4)) shapeCasts_S448x1_S7x64 : FVec Ideal S7x64 .f32) := by
  show StableHlo.after hostOps0 (fun b => m (c, b)) (Proc.devRef .tc main_v3) = _
  after_results
  try rfl
theorem V_v4 (c : Dev nD) : V m c main_v4 = (shapeCast S7 (m ((c : Thread nD τ).loc main_arg5)) shapeCasts_S7x1_S7 : FVec Ideal S7 .f32) := by
  show StableHlo.after hostOps0 (fun b => m (c, b)) (Proc.devRef .tc main_v4) = _
  after_results
  try rfl
theorem V_v5 (c : Dev nD) : V m c main_v5 = (shapeCast S7 (m ((c : Thread nD τ).loc main_arg6)) shapeCasts_S7x1_S7 : FVec Ideal S7 .f32) := by
  show StableHlo.after hostOps0 (fun b => m (c, b)) (Proc.devRef .tc main_v5) = _
  after_results
  try rfl
theorem V_v6 (c : Dev nD) : V m c main_v6 = (shapeCast S6 (m ((c : Thread nD τ).loc main_arg7)) shapeCasts_S6x1_S6 : FVec Ideal S6 .f32) := by
  show StableHlo.after hostOps0 (fun b => m (c, b)) (Proc.devRef .tc main_v6) = _
  after_results
  try rfl

/-! ## The blocks the points read -/

/-- Point t's x block is rows 4096 t .. of x. -/
theorem blk0 (c : Dev nD) (t : Fin cfg0.N) (q : Fin 4096) (k : Fin 64) (r : Fin 131072) (hr : r.val = t.val * 4096 + q.val) :
    (iblk m c 0 t : Vec Ideal S4096x64 .f32) (ix2 q k) = (m ((c : Thread nD τ).loc main_arg0) : S131072x64.Idx → EReal) (ix2 r k) := by
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t 0 * 4096 + 1 * q.val = r.val; rw [(idx0 t).1, hr]; omega
  | ⟨1, _⟩ => show win0_0.index t 1 * 64 + 1 * k.val = k.val; rw [(idx0 t).2]; omega

/-- Every point's W_pi block is the whole of W_pi. -/
theorem blk1 (c : Dev nD) (t : Fin cfg0.N) (k j : Fin 64) :
    (iblk m c 1 t : Vec Ideal S64x64 .bf16) (ix2 k j) = (m ((c : Thread nD τ).loc main_arg1) : S64x64.Idx → EReal) (ix2 k j) := by
  unfold iblk
  rw [View.read_apply]
  show V m c main_v0 _ = _
  rw [V_v0]
  show m ((c : Thread nD τ).loc main_arg1) _ = m ((c : Thread nD τ).loc main_arg1) _
  refine congrArg _ (funext fun a => Fin.ext ?_)
  obtain ⟨h0, h1, -⟩ := idxW t
  match a with
  | ⟨0, _⟩ => show win0_1.index t 0 * 64 + 1 * k.val = k.val; rw [h0]; omega
  | ⟨1, _⟩ => show win0_1.index t 1 * 64 + 1 * j.val = j.val; rw [h1]; omega

/-- Every point's shortcut row is W_shortcut's one column, laid as a row. -/
theorem blk2 (c : Dev nD) (t : Fin cfg0.N) (k : Fin 64) :
    (iblk m c 2 t : Vec Ideal S1x64 .f32) (ix2 (0 : Fin 1) k) = (m ((c : Thread nD τ).loc main_arg2) : S64x1.Idx → EReal) (ix2 k (0 : Fin 1)) := by
  unfold iblk
  rw [View.read_apply]
  show V m c main_v1 _ = _
  rw [V_v1]
  obtain ⟨-, -, h0, h1, -⟩ := idxW t
  refine transpose_apply [1, 0] _ _ _ (ix2 k (0 : Fin 1)) fun b => ?_
  match b with
  | ⟨0, _⟩ => show 0 = win0_2.index t 0 * 1 + 1 * 0; rw [h0]
  | ⟨1, _⟩ => show k.val = win0_2.index t 1 * 64 + 1 * k.val; rw [h1]; omega

/-- Every point's sum-head table is W_fb0_sum cut into 7 rows of 64: entry (i, j) is entry 64 i + j. -/
theorem blk3 (c : Dev nD) (t : Fin cfg0.N) (i : Fin 7) (j : Fin 64) :
    (iblk m c 3 t : Vec Ideal S7x64 .f32) (ix2 i j)
      = (m ((c : Thread nD τ).loc main_arg3) : S448x1.Idx → EReal) (ix2 (n0 := 448) (Cert.LibBlocks.entry i j) (0 : Fin 1)) := by
  unfold iblk
  rw [View.read_apply]
  show V m c main_v2 _ = _
  rw [V_v2]
  obtain ⟨-, -, -, -, h0, h1, -⟩ := idxW t
  refine shapeCast_apply _ _ _ _ ?_
  show (S448x1.rowMajor (ix2 (n0 := 448) (Cert.LibBlocks.entry i j) (0 : Fin 1))).val = (S7x64.rowMajor (((cfg0.win 3).blk t).view.emb (ix2 i j))).val
  rw [Shape.rowMajor_val_two, Shape.rowMajor_val_two]
  show (i.val * 64 + j.val) * 1 + 0 = (win0_3.index t 0 * 7 + 1 * i.val) * 64 + (win0_3.index t 1 * 64 + 1 * j.val)
  rw [h0, h1]; omega

/-- The same for the product-head table W_fb0_prod. -/
theorem blk4 (c : Dev nD) (t : Fin cfg0.N) (i : Fin 7) (j : Fin 64) :
    (iblk m c 4 t : Vec Ideal S7x64 .f32) (ix2 i j)
      = (m ((c : Thread nD τ).loc main_arg4) : S448x1.Idx → EReal) (ix2 (n0 := 448) (Cert.LibBlocks.entry i j) (0 : Fin 1)) := by
  unfold iblk
  rw [View.read_apply]
  show V m c main_v3 _ = _
  rw [V_v3]
  obtain ⟨-, -, -, -, -, -, h0, h1, -⟩ := idxW t
  refine shapeCast_apply _ _ _ _ ?_
  show (S448x1.rowMajor (ix2 (n0 := 448) (Cert.LibBlocks.entry i j) (0 : Fin 1))).val = (S7x64.rowMajor (((cfg0.win 4).blk t).view.emb (ix2 i j))).val
  rw [Shape.rowMajor_val_two, Shape.rowMajor_val_two]
  show (i.val * 64 + j.val) * 1 + 0 = (win0_4.index t 0 * 7 + 1 * i.val) * 64 + (win0_4.index t 1 * 64 + 1 * j.val)
  rw [h0, h1]; omega

/-- The 7-entry sum-head weights of the one-wide branch. -/
theorem blk5 (c : Dev nD) (t : Fin cfg0.N) (i : Fin 7) :
    (iblk m c 5 t : Vec Ideal S7 .f32) (ix1 i) = (m ((c : Thread nD τ).loc main_arg5) : S7x1.Idx → EReal) (ix2 i (0 : Fin 1)) := by
  unfold iblk
  rw [View.read_apply]
  show V m c main_v4 _ = _
  rw [V_v4]
  obtain ⟨-, -, -, -, -, -, -, -, h0, -⟩ := idxW t
  refine shapeCast_apply _ _ _ _ ?_
  show (S7x1.rowMajor (ix2 i (0 : Fin 1))).val = (S7.rowMajor (((cfg0.win 5).blk t).view.emb (ix1 i))).val
  rw [Shape.rowMajor_val_two, Shape.rowMajor_val_one]
  show i.val * 1 + 0 = win0_5.index t 0 * 7 + 1 * i.val
  rw [h0]; omega

/-- The 7-entry product-head weights of the one-wide branch. -/
theorem blk6 (c : Dev nD) (t : Fin cfg0.N) (i : Fin 7) :
    (iblk m c 6 t : Vec Ideal S7 .f32) (ix1 i) = (m ((c : Thread nD τ).loc main_arg6) : S7x1.Idx → EReal) (ix2 i (0 : Fin 1)) := by
  unfold iblk
  rw [View.read_apply]
  show V m c main_v5 _ = _
  rw [V_v5]
  obtain ⟨-, -, -, -, -, -, -, -, -, h0, -⟩ := idxW t
  refine shapeCast_apply _ _ _ _ ?_
  show (S7x1.rowMajor (ix2 i (0 : Fin 1))).val = (S7.rowMajor (((cfg0.win 6).blk t).view.emb (ix1 i))).val
  rw [Shape.rowMajor_val_two, Shape.rowMajor_val_one]
  show i.val * 1 + 0 = win0_6.index t 0 * 7 + 1 * i.val
  rw [h0]; omega

/-- The six last-layer weights. -/
theorem blk7 (c : Dev nD) (t : Fin cfg0.N) (i : Fin 6) :
    (iblk m c 7 t : Vec Ideal S6 .f32) (ix1 i) = (m ((c : Thread nD τ).loc main_arg7) : S6x1.Idx → EReal) (ix2 i (0 : Fin 1)) := by
  unfold iblk
  rw [View.read_apply]
  show V m c main_v6 _ = _
  rw [V_v6]
  obtain ⟨-, -, -, -, -, -, -, -, -, -, h0⟩ := idxW t
  refine shapeCast_apply _ _ _ _ ?_
  show (S6x1.rowMajor (ix2 i (0 : Fin 1))).val = (S6.rowMajor (((cfg0.win 7).blk t).view.emb (ix1 i))).val
  rw [Shape.rowMajor_val_two, Shape.rowMajor_val_one]
  show i.val * 1 + 0 = win0_7.index t 0 * 6 + 1 * i.val
  rw [h0]; omega

end Cert.KerBlocks

end
-- ==== Proof.KerFinal.lean ====
/-
  The array the region leaves: what each grid point writes back is its block of one whole-array function, the
  blocks cover the array, so the array ends holding that function.
-/
import proofs.«137862_j43276090474803_2_alg».proof.Proof.KerBlocks

noncomputable section

open scoped BigOperators

namespace Cert.KerBlocks

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ)

/-! ## What the points write back, and the array the region leaves -/

/-- The row of x that lane (i 2) of row (i 0) of the [32, 1, 4096] result belongs to. -/
def rowOf (i : S32x1x4096.Idx) : Fin 131072 :=
  ⟨(i 0).val * 4096 + (i 2).val, by
    have h0 : (i 0).val < 32 := (i 0).isLt
    have h2 : (i 2).val < 4096 := (i 2).isLt
    omega⟩

/-- The [32, 1, 4096] array the region leaves: entry (s, 0, q) is the result's value of row 4096 s + q. -/
def Garr (A0 : S131072x64.Idx → EReal) (A1 : S64x64.Idx → EReal) (A2 : S64x1.Idx → EReal) (A3 A4 : S448x1.Idx → EReal)
    (A5 A6 : S7x1.Idx → EReal) (A7 : S6x1.Idx → EReal) : S32x1x4096.Idx → EReal :=
  fun i => Cert.Spec.G A0 A1 A2 A3 A4 A5 A6 A7 (ix2 (rowOf i) (0 : Fin 1))

/-- What point t writes back is block t of that array. -/
theorem flushed_eq (c : Dev nD) (t : Fin cfg0.N) :
    (dats m 0 c).flushed 8 t = ((cfg0.win 8).blk t).view.read (Elt Ideal)
      (Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show (cfg0.win 8).cut (grid0.coords t) ((dats m 0 c).after 8 t) = _
  rw [after0_8]
  funext y
  obtain ⟨u, u', q, rfl⟩ : ∃ (u u' : Fin 1) (q : Fin 4096), y = ix3 u u' q := ⟨y 0, y 1, y 2, eq_ix3 y⟩
  obtain rfl : u = 0 := Subsingleton.elim _ _
  obtain rfl : u' = 0 := Subsingleton.elim _ _
  have hqa : q.val / 128 < 32 := by have := q.isLt; omega
  have hqb : q.val % 128 < 128 := Nat.mod_lt _ (by decide)
  have hq : q.val = (⟨q.val / 128, hqa⟩ : Fin 32).val * 128 + (⟨q.val % 128, hqb⟩ : Fin 128).val := by
    show q.val = q.val / 128 * 128 + q.val % 128
    omega
  refine (Cert.KerRead.out_at (iblk m c 0 t) (iblk m c 1 t) (iblk m c 2 t) (iblk m c 3 t) (iblk m c 4 t) (iblk m c 5 t)
    (iblk m c 6 t) (iblk m c 7 t) q ⟨q.val / 128, hqa⟩ ⟨q.val % 128, hqb⟩ hq).trans ?_
  have hR : (rowOf (((cfg0.win 8).blk t).view.emb (ix3 (0 : Fin 1) (0 : Fin 1) q))).val = t.val * 4096 + q.val := by
    show (win0_8.index t 0 * 1 + 1 * 0) * 4096 + (win0_8.index t 2 * 4096 + 1 * q.val) = _
    rw [(idx8 t).1, (idx8 t).2.2]; omega
  have e0 : (fun k => (iblk m c 0 t : Vec Ideal S4096x64 .f32) (ix2 q k))
      = fun k => (m ((c : Thread nD τ).loc main_arg0)) (ix2 (rowOf (((cfg0.win 8).blk t).view.emb (ix3 (0 : Fin 1) (0 : Fin 1) q))) k) :=
    funext fun k => blk0 m c t q k _ hR
  have e1 : (fun k j => (iblk m c 1 t : Vec Ideal S64x64 .bf16) (ix2 k j)) = fun k j => (m ((c : Thread nD τ).loc main_arg1)) (ix2 k j) :=
    funext fun k => funext fun j => blk1 m c t k j
  have e2 : (fun k => (iblk m c 2 t : Vec Ideal S1x64 .f32) (ix2 (0 : Fin 1) k)) = fun k => (m ((c : Thread nD τ).loc main_arg2)) (ix2 k (0 : Fin 1)) :=
    funext fun k => blk2 m c t k
  have e3 : (fun i j => (iblk m c 3 t : Vec Ideal S7x64 .f32) (ix2 i j))
      = fun i j => (fun e : Fin 448 => (m ((c : Thread nD τ).loc main_arg3)) (ix2 e (0 : Fin 1))) (Cert.LibBlocks.entry i j) :=
    funext fun i => funext fun j => blk3 m c t i j
  have e4 : (fun i j => (iblk m c 4 t : Vec Ideal S7x64 .f32) (ix2 i j))
      = fun i j => (fun e : Fin 448 => (m ((c : Thread nD τ).loc main_arg4)) (ix2 e (0 : Fin 1))) (Cert.LibBlocks.entry i j) :=
    funext fun i => funext fun j => blk4 m c t i j
  have e5 : (fun i => (iblk m c 5 t : Vec Ideal S7 .f32) (ix1 i)) = fun i => (m ((c : Thread nD τ).loc main_arg5)) (ix2 i (0 : Fin 1)) :=
    funext fun i => blk5 m c t i
  have e6 : (fun i => (iblk m c 6 t : Vec Ideal S7 .f32) (ix1 i)) = fun i => (m ((c : Thread nD τ).loc main_arg6)) (ix2 i (0 : Fin 1)) :=
    funext fun i => blk6 m c t i
  have e7 : (fun i => (iblk m c 7 t : Vec Ideal S6 .f32) (ix1 i)) = fun i => (m ((c : Thread nD τ).loc main_arg7)) (ix2 i (0 : Fin 1)) :=
    funext fun i => blk7 m c t i
  rw [e0, e1, e2, e3, e4, e5, e6, e7]
  refine (Cert.Spec.ker_eq_ref (fun k => (m ((c : Thread nD τ).loc main_arg0)) (ix2 (rowOf (((cfg0.win 8).blk t).view.emb (ix3 (0 : Fin 1) (0 : Fin 1) q))) k)) (fun k j => (m ((c : Thread nD τ).loc main_arg1)) (ix2 k j))
    (fun k => (m ((c : Thread nD τ).loc main_arg2)) (ix2 k (0 : Fin 1))) (fun e : Fin 448 => (m ((c : Thread nD τ).loc main_arg3)) (ix2 e (0 : Fin 1)))
    (fun e : Fin 448 => (m ((c : Thread nD τ).loc main_arg4)) (ix2 e (0 : Fin 1))) (fun i => (m ((c : Thread nD τ).loc main_arg5)) (ix2 i (0 : Fin 1)))
    (fun i => (m ((c : Thread nD τ).loc main_arg6)) (ix2 i (0 : Fin 1))) (fun i => (m ((c : Thread nD τ).loc main_arg7)) (ix2 i (0 : Fin 1)))).trans ?_
  rfl

/-- An index of the result array is in point t's block iff each coordinate is in the block's range. -/
theorem mem_blk (t : Fin cfg0.N) (i : S32x1x4096.Idx) :
    i ∈ ((cfg0.win 8).blk t).view.set ↔ ∀ a : Fin 3, win0_8.index t a * S1x1x4096.size a ≤ (i a).val
      ∧ (i a).val < win0_8.index t a * S1x1x4096.size a + S1x1x4096.size a := by
  show i ∈ ((View.whole main_v7).slice (win0_8.rect t)).set ↔ _
  rw [View.set_slice_whole, Rect.mem_set_unit]
  exact Iff.rfl

/-- The array the region leaves. -/
theorem final (c : Dev nD) : (dats m 0 c).arrAt 8 cfg0.N
    = Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_eq m c t) fun i => by
    have h0 : (i 0).val < 32 := (i 0).isLt
    have h1 : (i 1).val < 1 := (i 1).isLt
    have h2 : (i 2).val < 4096 := (i 2).isLt
    refine ⟨⟨(i 0).val, by rw [show cfg0.N = 32 from N_0]; exact h0⟩, flush0_8 _, ?_⟩
    rw [mem_blk]
    intro a
    obtain ⟨e0, e1, e2⟩ := idx8 ⟨(i 0).val, by rw [show cfg0.N = 32 from N_0]; exact h0⟩
    match a with
    | ⟨0, _⟩ =>
      show win0_8.index _ 0 * 1 ≤ (i 0).val ∧ (i 0).val < win0_8.index _ 0 * 1 + 1
      rw [e0]; show (i 0).val * 1 ≤ (i 0).val ∧ (i 0).val < (i 0).val * 1 + 1; omega
    | ⟨1, _⟩ =>
      show win0_8.index _ 1 * 1 ≤ (i 1).val ∧ (i 1).val < win0_8.index _ 1 * 1 + 1
      rw [e1]; omega
    | ⟨2, _⟩ =>
      show win0_8.index _ 2 * 4096 ≤ (i 2).val ∧ (i 2).val < win0_8.index _ 2 * 4096 + 4096
      rw [e2]; omega

end Cert.KerBlocks

end
-- ==== Proof.KerRun.lean ====
/-
  The kernel's run, read: the host's last line reshapes the [32, 1, 4096] array the region leaves into the
  [131072, 1] result, entry (r, 0) from (r / 4096, 0, r % 4096); so the result ends at the reference's row function
  of every row, and the arguments end unchanged.
-/
import proofs.«137862_j43276090474803_2_alg».proof.Proof.KerFinal

noncomputable section

open scoped BigOperators

namespace Cert.KerRun

open Idealize.ShloMosaic Idealize.ShloMosaic.TcCoe Idealize.ShloMosaic.ValueIdx Idealize.SL.Sem Cert.KernelIdeal Cert.KernelIdeal.Gen Cert.Spec Cert.KerBlocks

variable (m : (ℓ : Loc nD τ sig) → Buf (Elt Ideal) ℓ)

/-- What the line after the region writes: the result array, entry by entry the reference's value of its row. -/
theorem tail_eq (c : Dev nD) :
    Pipeline.afterTail₀ cfgs (dats m) 0 (V0 m) [hostOps1] c main_v8 = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = Garr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
    (Pipeline.withArrays_arr spec0 launch0.win.arr_inj c _ _ 8).trans (final m c)
  funext i
  obtain ⟨r, u, rfl⟩ : ∃ (r : Fin 131072) (u : Fin 1), i = ix2 r u := ⟨i 0, i 1, eq_ix2 i⟩
  obtain rfl : u = 0 := Subsingleton.elim _ _
  show shapeCast S131072x1 (Pipeline.withArrays (cfgs 0).spec c (V0 m c) (fun w => (dats m 0 c).arrAt w (cfgs 0).N)
    (Proc.devRef .tc main_v7)) shapeCasts_S32x1x4096_S131072x1 (ix2 r (0 : Fin 1)) = _
  rw [hw]
  have hra : r.val / 4096 < 32 := by have := r.isLt; omega
  have hrb : r.val % 4096 < 4096 := Nat.mod_lt _ (by decide)
  refine (shapeCast_apply _ _ (ix2 r (0 : Fin 1)) (ix3 (⟨r.val / 4096, hra⟩ : Fin 32) (0 : Fin 1) (⟨r.val % 4096, hrb⟩ : Fin 4096)) ?_).trans ?_
  · rw [Shape.rowMajor_val_three, Shape.rowMajor_val_two]
    show (r.val / 4096 * 1 + 0) * 4096 + r.val % 4096 = r.val * 1 + 0
    omega
  · show Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 (rowOf (ix3 (⟨r.val / 4096, hra⟩ : Fin 32) (0 : Fin 1) (⟨r.val % 4096, hrb⟩ : Fin 4096))) (0 : Fin 1)) = _
    refine congrArg (fun r' : Fin 131072 => Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 r' (0 : Fin 1))) (Fin.ext ?_)
    show r.val / 4096 * 4096 + r.val % 4096 = r.val
    omega

/-- The kernel's run: the result at the reference's row function of every row, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KerRun

end
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.LibConcatSeven.lean ====
/-
  A concatenate of seven parts of one shape as a function of the seven parts.

  The concatenate operation takes its parts as a list of arrays, each paired with its shape, and a side condition
  stated over that list's shapes; a statement about one part therefore cannot be rewritten in place. Read as a function
  of the seven parts, with the side condition stated over the shapes alone, the parts are ordinary arguments, and a
  term that evaluates the buffers a program's operations write, one rewriting pass at a time, goes on through the
  concatenate's operands instead of stopping at it.
-/
import Idealize.ShloMosaic.PureOps

namespace Cert.LibConcatSeven

open Idealize.ShloMosaic

/-- The concatenate of seven parts of shape `s` along axis `a` of the result shape `t`, as a function of the parts. -/
def concat7 {α : Type} (t : Shape) (a : Fin t.rank) (s : Shape) (h : Shape.Concatenates [s, s, s, s, s, s, s] t a)
    (x0 x1 x2 x3 x4 x5 x6 : s.Idx → α) : t.Idx → α :=
  concatenate t a [⟨s, x0⟩, ⟨s, x1⟩, ⟨s, x2⟩, ⟨s, x3⟩, ⟨s, x4⟩, ⟨s, x5⟩, ⟨s, x6⟩] h

/-- A concatenate of a literal list of seven parts of one shape is that function of them. -/
theorem concatenate_seven {α : Type} (t : Shape) (a : Fin t.rank) (s : Shape) (x0 x1 x2 x3 x4 x5 x6 : s.Idx → α)
    (h : Shape.Concatenates [s, s, s, s, s, s, s] t a) :
    concatenate t a [⟨s, x0⟩, ⟨s, x1⟩, ⟨s, x2⟩, ⟨s, x3⟩, ⟨s, x4⟩, ⟨s, x5⟩, ⟨s, x6⟩] h = concat7 t a s h x0 x1 x2 x3 x4 x5 x6 := rfl

end Cert.LibConcatSeven
-- ==== Proof.RefIsG1.lean ====
/-
  The reference program read entry by entry, first part: the two product layers and the two feature arrays.

  Row r of the input gives lg x_k = log |x_k|; the 64-wide layer's entry (r, j) is exp of the sum over k of
  lg x_k * Wpi(k, j), the one-wide layer's entry (r, 0) is exp of the sum over k of lg x_k * wsh_k. The 448-wide
  feature array is seven 64-wide arrays laid side by side, so its entry (r, k) is feature k / 64 of the 64-wide
  layer's entry (r, k % 64); the 7-wide feature array's entry (r, k) is feature k of the one-wide layer's entry.
-/
import proofs.«137862_j43276090474803_2_alg».proof.Proof.RefRead
import proofs.«137862_j43276090474803_2_alg».proof.Proof.Spec
import Idealize.ShloMosaic.Lib.Pipeline.Value
import Idealize.ShloMosaic.Lib.ValueIdx
import Idealize.ShloMosaic.Lib.IdealHost

noncomputable section

open scoped BigOperators

namespace Cert.RefSide

open Cert.ReferenceIdeal Cert.ReferenceIdeal.Gen Cert.ReferenceIdeal.Read Idealize.ShloMosaic
  Idealize.ShloMosaic.ValueIdx Idealize.ShloMosaic.StableHlo

/-- The input array, the two layers' weights. -/
abbrev A0 : Type := (⟨S131072x64, .f32⟩ : BufTy).Contents (Elt Ideal)
abbrev A1 : Type := (⟨S64x64, .f32⟩ : BufTy).Contents (Elt Ideal)
abbrev A2 : Type := (⟨S64x1, .f32⟩ : BufTy).Contents (Elt Ideal)

/-! ## The two product layers -/

/-- log |x| entry by entry. -/
theorem v1_at (x0 : A0) (i : S131072x64.Idx) : val_main_v1 (F := Ideal) x0 i = Spec.lg (x0 i) := rfl
theorem v5_at (x0 : A0) (i : S131072x64.Idx) : val_main_v5 (F := Ideal) x0 i = Spec.lg (x0 i) := rfl

/-- The 64-wide layer at (r, j). -/
theorem v3_at (x0 : A0) (x1 : A1) (r : Fin 131072) (j : Fin 64) :
    val_main_v3 (F := Ideal) x0 x1 (ix2 r j)
      = Ideal.exp (Spec.z0 (fun k => x0 (ix2 r k)) (fun k j => x1 (ix2 k j)) j) := by
  rw [val_main_v3_apply, val_main_v2_apply]
  show Ideal.exp _ = _
  unfold Spec.z0
  refine congrArg Ideal.exp (Finset.sum_congr rfl fun k _ => ?_)
  have hl : lidx_main_v2 (ix2 r j) k = ix2 r k := by
    funext a; match a with | ⟨0, _⟩ => rfl | ⟨1, _⟩ => rfl
  have hr : ridx_main_v2 (ix2 r j) k = ix2 k j := by
    funext a; match a with | ⟨0, _⟩ => rfl | ⟨1, _⟩ => rfl
  rw [hl, hr, v1_at]

/-- The one-wide layer at (r, 0). -/
theorem v7_at (x0 : A0) (x2 : A2) (r : Fin 131072) :
    val_main_v7 (F := Ideal) x0 x2 (ix2 r (0 : Fin 1))
      = Ideal.exp (Spec.z1 (fun k => x0 (ix2 r k)) (fun k => x2 (ix2 k (0 : Fin 1)))) := by
  rw [val_main_v7_apply, val_main_v6_apply]
  show Ideal.exp _ = _
  unfold Spec.z1
  refine congrArg Ideal.exp (Finset.sum_congr rfl fun k _ => ?_)
  have hl : lidx_main_v6 (ix2 r (0 : Fin 1)) k = ix2 r k := by
    funext a; match a with | ⟨0, _⟩ => rfl | ⟨1, _⟩ => rfl
  have hr : ridx_main_v6 (ix2 r (0 : Fin 1)) k = ix2 k (0 : Fin 1) := by
    funext a; match a with | ⟨0, _⟩ => rfl | ⟨1, _⟩ => rfl
  rw [hl, hr, v5_at]

/-! ## The seven features -/

/-- The seven 64-wide feature arrays, in the order the reference lays them side by side. -/
def pieces64 (x0 : A0) (x1 : A1) : Fin 7 → (S131072x64.Idx → EReal) :=
  ![val_main_v3 (F := Ideal) x0 x1, val_main_v8 (F := Ideal) x0 x1, val_main_v9 (F := Ideal) x0 x1,
    val_main_v10 (F := Ideal) x0 x1, val_main_v11 (F := Ideal) x0 x1, val_main_v13 (F := Ideal) x0 x1,
    val_main_v19 (F := Ideal) x0 x1]

/-- Piece n at an index is feature n of the 64-wide layer there. -/
theorem pieces64_at (x0 : A0) (x1 : A1) (n : Fin 7) (i : S131072x64.Idx) :
    pieces64 x0 x1 n i = Spec.feat n (val_main_v3 (F := Ideal) x0 x1 i) := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The 448-wide feature array is the seven pieces side by side. -/
theorem v20_eq (x0 : A0) (x1 : A1) :
    val_main_v20 (F := Ideal) x0 x1
      = concatenate S131072x448 1
          (List.ofFn fun n : Fin 7 => (⟨S131072x64, pieces64 x0 x1 n⟩ : (s : Shape) × (s.Idx → EReal)))
          Facts₀.concatenates_S131072x64_S131072x64_S131072x64_S131072x64_S131072x64_S131072x64_S131072x64_S131072x448_d1 := rfl

/-- The 448-wide feature array at (r, k): feature k / 64 of the 64-wide layer at (r, k % 64). -/
theorem v20_at (x0 : A0) (x1 : A1) (r : Fin 131072) (k : Fin 448) :
    val_main_v20 (F := Ideal) x0 x1 (ix2 r k)
      = Spec.feat ⟨k.val / 64, by omega⟩ (val_main_v3 (F := Ideal) x0 x1 (ix2 r (⟨k.val % 64, by omega⟩ : Fin 64))) := by
  rw [v20_eq, ← pieces64_at]
  exact concatenate_ofFn_apply (t := S131072x448) (s₁ := S131072x64) (1 : Fin 2) (pieces64 x0 x1) _ rfl 64 rfl (ix2 r k) ⟨k.val / 64, by omega⟩ rfl
    (ix2 r (⟨k.val % 64, by omega⟩ : Fin 64)) rfl
    (fun b hb => by
      match b with
      | ⟨0, _⟩ => rfl
      | ⟨1, _⟩ => exact absurd rfl hb)

/-- The seven one-wide feature arrays. -/
def pieces1 (x0 : A0) (x2 : A2) : Fin 7 → (S131072x1.Idx → EReal) :=
  ![val_main_v7 (F := Ideal) x0 x2, val_main_v27 (F := Ideal) x0 x2, val_main_v28 (F := Ideal) x0 x2,
    val_main_v29 (F := Ideal) x0 x2, val_main_v30 (F := Ideal) x0 x2, val_main_v32 (F := Ideal) x0 x2,
    val_main_v38 (F := Ideal) x0 x2]

/-- Piece n at an index is feature n of the one-wide layer there. -/
theorem pieces1_at (x0 : A0) (x2 : A2) (n : Fin 7) (i : S131072x1.Idx) :
    pieces1 x0 x2 n i = Spec.feat n (val_main_v7 (F := Ideal) x0 x2 i) := by
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The 7-wide feature array is the seven pieces side by side. -/
theorem v39_eq (x0 : A0) (x2 : A2) :
    val_main_v39 (F := Ideal) x0 x2
      = concatenate S131072x7 1
          (List.ofFn fun n : Fin 7 => (⟨S131072x1, pieces1 x0 x2 n⟩ : (s : Shape) × (s.Idx → EReal)))
          Facts₀.concatenates_S131072x1_S131072x1_S131072x1_S131072x1_S131072x1_S131072x1_S131072x1_S131072x7_d1 := rfl

/-- The 7-wide feature array at (r, k): feature k of the one-wide layer at (r, 0). -/
theorem v39_at (x0 : A0) (x2 : A2) (r : Fin 131072) (k : Fin 7) :
    val_main_v39 (F := Ideal) x0 x2 (ix2 r k)
      = Spec.feat k (val_main_v7 (F := Ideal) x0 x2 (ix2 r (0 : Fin 1))) := by
  rw [v39_eq, ← pieces1_at]
  exact concatenate_ofFn_unit_apply (t := S131072x7) (s₁ := S131072x1) (1 : Fin 2) (pieces1 x0 x2) _ rfl rfl (ix2 r k) k rfl
    (ix2 r (0 : Fin 1))
    (fun b hb => by
      match b with
      | ⟨0, _⟩ => rfl
      | ⟨1, _⟩ => exact absurd rfl hb)

end Cert.RefSide

end
-- ==== Proof.RefIsG2.lean ====
/-
  The reference program read entry by entry, second part: the four heads.

  The sum head over the 448 features is the sum over k of feature k times weight k, the product head the exponential
  of the sum over k of log |feature k| times weight k; the same over the 7 features of the one-wide layer.
-/
import proofs.«137862_j43276090474803_2_alg».proof.Proof.RefIsG1

noncomputable section

open scoped BigOperators

namespace Cert.RefSide

open Cert.ReferenceIdeal Cert.ReferenceIdeal.Gen Cert.ReferenceIdeal.Read Idealize.ShloMosaic
  Idealize.ShloMosaic.ValueIdx Idealize.ShloMosaic.StableHlo

/-- The head weights. -/
abbrev A3 : Type := (⟨S448x1, .f32⟩ : BufTy).Contents (Elt Ideal)
abbrev A5 : Type := (⟨S7x1, .f32⟩ : BufTy).Contents (Elt Ideal)

/-- The sum head over the 448 features at (r, 0). -/
theorem v21_at (x0 : A0) (x1 : A1) (x3 : A3) (r : Fin 131072) :
    val_main_v21 (F := Ideal) x0 x1 x3 (ix2 r (0 : Fin 1))
      = Spec.refS0 (fun j => Ideal.exp (Spec.z0 (fun k => x0 (ix2 r k)) (fun k j => x1 (ix2 k j)) j))
          (fun k => x3 (ix2 k (0 : Fin 1))) := by
  rw [val_main_v21_apply]
  unfold Spec.refS0
  refine Finset.sum_congr rfl fun k _ => ?_
  have hl : lidx_main_v21 (ix2 r (0 : Fin 1)) k = ix2 r k := by
    funext a; match a with | ⟨0, _⟩ => rfl | ⟨1, _⟩ => rfl
  have hr : ridx_main_v21 (ix2 r (0 : Fin 1)) k = ix2 k (0 : Fin 1) := by
    funext a; match a with | ⟨0, _⟩ => rfl | ⟨1, _⟩ => rfl
  rw [hl, hr, v20_at, v3_at]

/-- The product head over the 448 features at (r, 0). -/
theorem v25_at (x0 : A0) (x1 : A1) (x4 : A3) (r : Fin 131072) :
    val_main_v25 (F := Ideal) x0 x1 x4 (ix2 r (0 : Fin 1))
      = Spec.refP0 (fun j => Ideal.exp (Spec.z0 (fun k => x0 (ix2 r k)) (fun k j => x1 (ix2 k j)) j))
          (fun k => x4 (ix2 k (0 : Fin 1))) := by
  rw [val_main_v25_apply, val_main_v24_apply]
  show Ideal.exp _ = _
  unfold Spec.refP0
  refine congrArg Ideal.exp (Finset.sum_congr rfl fun k _ => ?_)
  have hl : lidx_main_v24 (ix2 r (0 : Fin 1)) k = ix2 r k := by
    funext a; match a with | ⟨0, _⟩ => rfl | ⟨1, _⟩ => rfl
  have hr : ridx_main_v24 (ix2 r (0 : Fin 1)) k = ix2 k (0 : Fin 1) := by
    funext a; match a with | ⟨0, _⟩ => rfl | ⟨1, _⟩ => rfl
  have h23 : val_main_v23 (F := Ideal) x0 x1 (ix2 r k) = Spec.lg (val_main_v20 (F := Ideal) x0 x1 (ix2 r k)) := rfl
  rw [hl, hr, h23, v20_at, v3_at]

/-- The sum head over the 7 features at (r, 0). -/
theorem v40_at (x0 : A0) (x2 : A2) (x5 : A5) (r : Fin 131072) :
    val_main_v40 (F := Ideal) x0 x2 x5 (ix2 r (0 : Fin 1))
      = Spec.refS1 (Ideal.exp (Spec.z1 (fun k => x0 (ix2 r k)) (fun k => x2 (ix2 k (0 : Fin 1)))))
          (fun k => x5 (ix2 k (0 : Fin 1))) := by
  rw [val_main_v40_apply]
  unfold Spec.refS1
  refine Finset.sum_congr rfl fun k _ => ?_
  have hl : lidx_main_v40 (ix2 r (0 : Fin 1)) k = ix2 r k := by
    funext a; match a with | ⟨0, _⟩ => rfl | ⟨1, _⟩ => rfl
  have hr : ridx_main_v40 (ix2 r (0 : Fin 1)) k = ix2 k (0 : Fin 1) := by
    funext a; match a with | ⟨0, _⟩ => rfl | ⟨1, _⟩ => rfl
  rw [hl, hr, v39_at, v7_at]

/-- The product head over the 7 features at (r, 0). -/
theorem v44_at (x0 : A0) (x2 : A2) (x6 : A5) (r : Fin 131072) :
    val_main_v44 (F := Ideal) x0 x2 x6 (ix2 r (0 : Fin 1))
      = Spec.refP1 (Ideal.exp (Spec.z1 (fun k => x0 (ix2 r k)) (fun k => x2 (ix2 k (0 : Fin 1)))))
          (fun k => x6 (ix2 k (0 : Fin 1))) := by
  rw [val_main_v44_apply, val_main_v43_apply]
  show Ideal.exp _ = _
  unfold Spec.refP1
  refine congrArg Ideal.exp (Finset.sum_congr rfl fun k _ => ?_)
  have hl : lidx_main_v43 (ix2 r (0 : Fin 1)) k = ix2 r k := by
    funext a; match a with | ⟨0, _⟩ => rfl | ⟨1, _⟩ => rfl
  have hr : ridx_main_v43 (ix2 r (0 : Fin 1)) k = ix2 k (0 : Fin 1) := by
    funext a; match a with | ⟨0, _⟩ => rfl | ⟨1, _⟩ => rfl
  have h42 : val_main_v42 (F := Ideal) x0 x2 (ix2 r k) = Spec.lg (val_main_v39 (F := Ideal) x0 x2 (ix2 r k)) := rfl
  rw [hl, hr, h42, v39_at, v7_at]

end Cert.RefSide

end
-- ==== Proof.RefIsG.lean ====
/-
  The reference program's result is the array G: entry (r, 0) is the last layer's weighted sum of the four heads of
  row r and the two products of heads.

  The last layer's six-wide input is laid out as (s0, p0, s1, p1, s0 * s1, p0 * p1): two two-wide arrays (s0, p0) and
  (s1, p1) side by side, then their entrywise product.
-/
import proofs.«137862_j43276090474803_2_alg».proof.Proof.RefIsG2

noncomputable section

open scoped BigOperators

namespace Cert.RefSide

open Cert.ReferenceIdeal Cert.ReferenceIdeal.Gen Cert.ReferenceIdeal.Read Idealize.ShloMosaic
  Idealize.ShloMosaic.ValueIdx Idealize.ShloMosaic.StableHlo

/-- The last layer's weights. -/
abbrev A7 : Type := (⟨S6x1, .f32⟩ : BufTy).Contents (Elt Ideal)

/-! ## Two arrays side by side, read at a column -/

/-- A column of the first array. -/
theorem pair_left {N n m p : Nat} (x₁ : (⟨2, ![N, n]⟩ : Shape).Idx → EReal) (x₂ : (⟨2, ![N, m]⟩ : Shape).Idx → EReal)
    (h : Shape.Concatenates [(⟨2, ![N, n]⟩ : Shape), ⟨2, ![N, m]⟩] ⟨2, ![N, p]⟩ 1) (r : Fin N) (c : Fin p) (c' : Fin n)
    (hc : c'.val = c.val) :
    concatenate (⟨2, ![N, p]⟩ : Shape) 1 [⟨⟨2, ![N, n]⟩, x₁⟩, ⟨⟨2, ![N, m]⟩, x₂⟩] h (ix2 r c) = x₁ (ix2 r c') :=
  concatenate_pair_apply_left (t := ⟨2, ![N, p]⟩) (s₁ := ⟨2, ![N, n]⟩) (s₂ := ⟨2, ![N, m]⟩) (1 : Fin 2) x₁ x₂ h (ix2 r c) rfl (ix2 r c') (fun b => by
    match b with
    | ⟨0, _⟩ => rfl
    | ⟨1, _⟩ => exact hc)

/-- A column of the second array. -/
theorem pair_right {N n m p : Nat} (x₁ : (⟨2, ![N, n]⟩ : Shape).Idx → EReal) (x₂ : (⟨2, ![N, m]⟩ : Shape).Idx → EReal)
    (h : Shape.Concatenates [(⟨2, ![N, n]⟩ : Shape), ⟨2, ![N, m]⟩] ⟨2, ![N, p]⟩ 1) (r : Fin N) (c : Fin p) (c' : Fin m)
    (hc : c'.val + n = c.val) :
    concatenate (⟨2, ![N, p]⟩ : Shape) 1 [⟨⟨2, ![N, n]⟩, x₁⟩, ⟨⟨2, ![N, m]⟩, x₂⟩] h (ix2 r c) = x₂ (ix2 r c') :=
  concatenate_pair_apply_right (t := ⟨2, ![N, p]⟩) (s₁ := ⟨2, ![N, n]⟩) (s₂ := ⟨2, ![N, m]⟩) (1 : Fin 2) x₁ x₂ h (ix2 r c) rfl rfl (ix2 r c') (fun b hb => by
    match b with
    | ⟨0, _⟩ => rfl
    | ⟨1, _⟩ => exact absurd rfl hb) hc

/-! ## The six columns of the last layer's input -/

section
variable (x0 : A0) (x1 : A1) (x2 : A2) (x3 x4 : A3) (x5 x6 : A5) (r : Fin 131072)

/-- (s0, p0). -/
theorem v26_c0 : val_main_v26 (F := Ideal) x0 x1 x3 x4 (ix2 r (0 : Fin 2))
    = val_main_v21 (F := Ideal) x0 x1 x3 (ix2 r (0 : Fin 1)) :=
  pair_left _ _ _ r (0 : Fin 2) (0 : Fin 1) rfl
theorem v26_c1 : val_main_v26 (F := Ideal) x0 x1 x3 x4 (ix2 r (1 : Fin 2))
    = val_main_v25 (F := Ideal) x0 x1 x4 (ix2 r (0 : Fin 1)) :=
  pair_right _ _ _ r (1 : Fin 2) (0 : Fin 1) rfl

/-- (s1, p1). -/
theorem v45_c0 : val_main_v45 (F := Ideal) x0 x2 x5 x6 (ix2 r (0 : Fin 2))
    = val_main_v40 (F := Ideal) x0 x2 x5 (ix2 r (0 : Fin 1)) :=
  pair_left _ _ _ r (0 : Fin 2) (0 : Fin 1) rfl
theorem v45_c1 : val_main_v45 (F := Ideal) x0 x2 x5 x6 (ix2 r (1 : Fin 2))
    = val_main_v44 (F := Ideal) x0 x2 x6 (ix2 r (0 : Fin 1)) :=
  pair_right _ _ _ r (1 : Fin 2) (0 : Fin 1) rfl

/-- (s0, p0, s1, p1). -/
theorem v46_c0 : val_main_v46 (F := Ideal) x0 x1 x2 x3 x4 x5 x6 (ix2 r (0 : Fin 4))
    = val_main_v26 (F := Ideal) x0 x1 x3 x4 (ix2 r (0 : Fin 2)) :=
  pair_left _ _ _ r (0 : Fin 4) (0 : Fin 2) rfl
theorem v46_c1 : val_main_v46 (F := Ideal) x0 x1 x2 x3 x4 x5 x6 (ix2 r (1 : Fin 4))
    = val_main_v26 (F := Ideal) x0 x1 x3 x4 (ix2 r (1 : Fin 2)) :=
  pair_left _ _ _ r (1 : Fin 4) (1 : Fin 2) rfl
theorem v46_c2 : val_main_v46 (F := Ideal) x0 x1 x2 x3 x4 x5 x6 (ix2 r (2 : Fin 4))
    = val_main_v45 (F := Ideal) x0 x2 x5 x6 (ix2 r (0 : Fin 2)) :=
  pair_right _ _ _ r (2 : Fin 4) (0 : Fin 2) rfl
theorem v46_c3 : val_main_v46 (F := Ideal) x0 x1 x2 x3 x4 x5 x6 (ix2 r (3 : Fin 4))
    = val_main_v45 (F := Ideal) x0 x2 x5 x6 (ix2 r (1 : Fin 2)) :=
  pair_right _ _ _ r (3 : Fin 4) (1 : Fin 2) rfl

/-- The entrywise product (s0 * s1, p0 * p1). -/
theorem v47_at (c : Fin 2) : val_main_v47 (F := Ideal) x0 x1 x2 x3 x4 x5 x6 (ix2 r c)
    = val_main_v26 (F := Ideal) x0 x1 x3 x4 (ix2 r c) * val_main_v45 (F := Ideal) x0 x2 x5 x6 (ix2 r c) := rfl

/-- The six columns. -/
theorem v48_c0 : val_main_v48 (F := Ideal) x0 x1 x2 x3 x4 x5 x6 (ix2 r (0 : Fin 6))
    = val_main_v21 (F := Ideal) x0 x1 x3 (ix2 r (0 : Fin 1)) :=
  (pair_left _ _ _ r (0 : Fin 6) (0 : Fin 4) rfl).trans ((v46_c0 x0 x1 x2 x3 x4 x5 x6 r).trans (v26_c0 x0 x1 x3 x4 r))
theorem v48_c1 : val_main_v48 (F := Ideal) x0 x1 x2 x3 x4 x5 x6 (ix2 r (1 : Fin 6))
    = val_main_v25 (F := Ideal) x0 x1 x4 (ix2 r (0 : Fin 1)) :=
  (pair_left _ _ _ r (1 : Fin 6) (1 : Fin 4) rfl).trans ((v46_c1 x0 x1 x2 x3 x4 x5 x6 r).trans (v26_c1 x0 x1 x3 x4 r))
theorem v48_c2 : val_main_v48 (F := Ideal) x0 x1 x2 x3 x4 x5 x6 (ix2 r (2 : Fin 6))
    = val_main_v40 (F := Ideal) x0 x2 x5 (ix2 r (0 : Fin 1)) :=
  (pair_left _ _ _ r (2 : Fin 6) (2 : Fin 4) rfl).trans ((v46_c2 x0 x1 x2 x3 x4 x5 x6 r).trans (v45_c0 x0 x2 x5 x6 r))
theorem v48_c3 : val_main_v48 (F := Ideal) x0 x1 x2 x3 x4 x5 x6 (ix2 r (3 : Fin 6))
    = val_main_v44 (F := Ideal) x0 x2 x6 (ix2 r (0 : Fin 1)) :=
  (pair_left _ _ _ r (3 : Fin 6) (3 : Fin 4) rfl).trans ((v46_c3 x0 x1 x2 x3 x4 x5 x6 r).trans (v45_c1 x0 x2 x5 x6 r))
theorem v48_c4 : val_main_v48 (F := Ideal) x0 x1 x2 x3 x4 x5 x6 (ix2 r (4 : Fin 6))
    = val_main_v21 (F := Ideal) x0 x1 x3 (ix2 r (0 : Fin 1)) * val_main_v40 (F := Ideal) x0 x2 x5 (ix2 r (0 : Fin 1)) := by
  refine (pair_right _ _ _ r (4 : Fin 6) (0 : Fin 2) rfl).trans ?_
  rw [v47_at, v26_c0, v45_c0]
theorem v48_c5 : val_main_v48 (F := Ideal) x0 x1 x2 x3 x4 x5 x6 (ix2 r (5 : Fin 6))
    = val_main_v25 (F := Ideal) x0 x1 x4 (ix2 r (0 : Fin 1)) * val_main_v44 (F := Ideal) x0 x2 x6 (ix2 r (0 : Fin 1)) := by
  refine (pair_right _ _ _ r (5 : Fin 6) (1 : Fin 2) rfl).trans ?_
  rw [v47_at, v26_c1, v45_c1]

/-- The last layer at (r, 0): the six columns against the six weights. -/
theorem v49_at (x7 : A7) : val_main_v49 (F := Ideal) x0 x1 x2 x3 x4 x5 x6 x7 (ix2 r (0 : Fin 1))
    = ∑ k : Fin 6, val_main_v48 (F := Ideal) x0 x1 x2 x3 x4 x5 x6 (ix2 r k) * x7 (ix2 k (0 : Fin 1)) := by
  rw [val_main_v49_apply]
  refine Finset.sum_congr rfl fun k _ => ?_
  have hl : lidx_main_v49 (ix2 r (0 : Fin 1)) k = ix2 r k := by
    funext a; match a with | ⟨0, _⟩ => rfl | ⟨1, _⟩ => rfl
  have hr : ridx_main_v49 (ix2 r (0 : Fin 1)) k = ix2 k (0 : Fin 1) := by
    funext a; match a with | ⟨0, _⟩ => rfl | ⟨1, _⟩ => rfl
  rw [hl, hr]

end

/-! ## The result -/

/-- The reference program's result is G. -/
theorem ref_eq_G (x0 : (⟨S131072x64, .f32⟩ : BufTy).Contents (Elt Ideal)) (x1 : (⟨S64x64, .f32⟩ : BufTy).Contents (Elt Ideal))
    (x2 : (⟨S64x1, .f32⟩ : BufTy).Contents (Elt Ideal)) (x3 x4 : (⟨S448x1, .f32⟩ : BufTy).Contents (Elt Ideal))
    (x5 x6 : (⟨S7x1, .f32⟩ : BufTy).Contents (Elt Ideal)) (x7 : (⟨S6x1, .f32⟩ : BufTy).Contents (Elt Ideal)) :
    Cert.ReferenceIdeal.Read.val_main_v49 (F := Ideal) x0 x1 x2 x3 x4 x5 x6 x7 = Cert.Spec.G x0 x1 x2 x3 x4 x5 x6 x7 := by
  funext i
  obtain ⟨r, u, rfl⟩ : ∃ (r : Fin 131072) (u : Fin 1), i = ix2 r u := ⟨i 0, i 1, eq_ix2 i⟩
  obtain rfl : u = 0 := Subsingleton.elim _ _
  rw [v49_at, Fin.sum_univ_six, v48_c0, v48_c1, v48_c2, v48_c3, v48_c4, v48_c5, v21_at, v25_at, v40_at, v44_at]
  rfl

end Cert.RefSide

end
-- ==== Proof.lean ====
/-
  The kernel and its reference compute one function of their eight arguments.

  For every row x of 64 entries both compute: lg x_k = log |x_k|; a 64-wide layer y0 = exp ((lg x) W_pi) and a
  one-wide layer y1 = exp ((lg x) W_shortcut); for each of them seven features (y, sin y, cos y, tanh y, exp y,
  log |y|, 1 / (1 + exp (-y))), a sum head (the weighted sum of the features) and a product head (the exponential of
  the weighted sum of the logarithms of their absolute values); and a last layer over the four heads and the two
  products of heads. The kernel runs 32 grid points of 4096 rows; in a point it sums the 64-wide heads feature by
  feature against 7 x 64 weight tables and then along the row, runs the one-wide branch on a 32 x 128 tile, and uses
  three shortcuts valid because y0 and y1 are exponentials: log |exp z| = z (for log |y| and for log |exp y|) and
  log |1 / (1 + exp (-y))| = -softplus (-y) for 0 <= y. On the extended reals a change of float format is the
  identity, a matrix product is its sum, and sums may be regrouped and reordered, so both programs end with entry
  (r, 0) of the result at the reference's row function of row r (Spec.G); no finiteness of the inputs is used.

  The three frames are the generated frame runs (the reference's from its run); nothing was rewritten by the ideal
  pass, so there is nothing to preserve; the value claim pairs the kernel's run (the region's array read off the
  frame run, then the host's reshape) with the reference's run (its last stage read index by index).
-/
import proofs.«137862_j43276090474803_2_alg».proof.Defs
import proofs.«137862_j43276090474803_2_alg».proof.Proof.Gen.Kernel
import proofs.«137862_j43276090474803_2_alg».proof.Proof.Gen.Kernel.Skeleton
import proofs.«137862_j43276090474803_2_alg».proof.Proof.Gen.Kernel.Launch
import proofs.«137862_j43276090474803_2_alg».proof.Proof.Gen.Kernel.Points
import proofs.«137862_j43276090474803_2_alg».proof.Proof.Gen.Kernel.Frame
import proofs.«137862_j43276090474803_2_alg».proof.Proof.Gen.KernelIdeal
import proofs.«137862_j43276090474803_2_alg».proof.Proof.Gen.KernelIdeal.Skeleton
import proofs.«137862_j43276090474803_2_alg».proof.Proof.Gen.KernelIdeal.Launch
import proofs.«137862_j43276090474803_2_alg».proof.Proof.Gen.KernelIdeal.Points
import proofs.«137862_j43276090474803_2_alg».proof.Proof.Gen.KernelIdeal.Frame
import proofs.«137862_j43276090474803_2_alg».proof.Proof.Gen.ReferenceIdeal
import proofs.«137862_j43276090474803_2_alg».proof.Proof.Gen.Pre_finite_inputs
import proofs.«137862_j43276090474803_2_alg».proof.Proof.KerRun
import proofs.«137862_j43276090474803_2_alg».proof.Proof.RefRun
import proofs.«137862_j43276090474803_2_alg».proof.Proof.RefIsG
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at Spec.G of the arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.RefSide.ref_eq_G]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
